-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x512 : Shape := ⟨3, ![512, 512, 512]⟩
abbrev S150x512x512 : Shape := ⟨3, ![150, 512, 512]⟩
abbrev S_ : Shape := ⟨0, ![]⟩

class Facts : Prop where
  bcast_S_S512x512x512 : S_.BroadcastsInDim S512x512x512 (![] : Fin 0 → Fin S512x512x512.rank)
  reducesTo_S512x512x512_S_d0_1_2 : S512x512x512.ReducesTo [0, 1, 2] S_
  h_S_ : 0 < S_.numel
  bcast_S_S150x512x512 : S_.BroadcastsInDim S150x512x512 (![] : Fin 0 → Fin S150x512x512.rank)
  reducesTo_S150x512x512_S_d0_1_2 : S150x512x512.ReducesTo [0, 1, 2] S_

variable [Facts]

def fn {F : FTy → Type} [FloatOps F] (main_arg0 : FVec F S512x512x512 .f32) (main_arg1 : FVec F S150x512x512 .f32) : IVec S_ 1 :=
  let main_v0 : FVec F S512x512x512 .f32 := Host.absf main_arg0
  let main_cst : FVec F S_ .f32 := constant S_ .f32 0x7F800000#32
  let main_v1 : FVec F S512x512x512 .f32 := broadcastInDim S512x512x512 ![] bcast_S_S512x512x512 main_cst
  let main_v2 : IVec S512x512x512 1 := cmpf .olt main_v0 main_v1
  let main_c : IVec S_ 1 := constantI S_ 1 1#1
  let main_v3 : IVec S_ 1 := (fun x v => Host.reduce IntOp.andi x v reducesTo_S512x512x512_S_d0_1_2 h_S_) main_v2 main_c
  let main_v4 : FVec F S150x512x512 .f32 := Host.absf main_arg1
  let main_cst_0 : FVec F S_ .f32 := constant S_ .f32 0x7F800000#32
  let main_v5 : FVec F S150x512x512 .f32 := broadcastInDim S150x512x512 ![] bcast_S_S150x512x512 main_cst_0
  let main_v6 : IVec S150x512x512 1 := cmpf .olt main_v4 main_v5
  let main_c_1 : IVec S_ 1 := constantI S_ 1 1#1
  let main_v7 : IVec S_ 1 := (fun x v => Host.reduce IntOp.andi x v reducesTo_S150x512x512_S_d0_1_2 h_S_) main_v6 main_c_1
  let main_v8 : IVec S_ 1 := andi main_v3 main_v7
  main_v8
-- ==== Kernel.lean ====
abbrev S512x512x512 : Shape := ⟨3, ![512, 512, 512]⟩
abbrev S150x512x512 : Shape := ⟨3, ![150, 512, 512]⟩
abbrev S512x262144 : Shape := ⟨2, ![512, 262144]⟩
abbrev S150x262144 : Shape := ⟨2, ![150, 262144]⟩
abbrev S2x150x512 : Shape := ⟨3, ![2, 150, 512]⟩
abbrev S2x150x1 : Shape := ⟨3, ![2, 150, 1]⟩
abbrev S150x4096 : Shape := ⟨2, ![150, 4096]⟩
abbrev S512x4096 : Shape := ⟨2, ![512, 4096]⟩
abbrev S1x150x512 : Shape := ⟨3, ![1, 150, 512]⟩
abbrev S1x150x1 : Shape := ⟨3, ![1, 150, 1]⟩
abbrev S150x512 : Shape := ⟨2, ![150, 512]⟩
abbrev S150x1 : Shape := ⟨2, ![150, 1]⟩
abbrev S4096 : Shape := ⟨1, ![4096]⟩
abbrev S1x4096 : Shape := ⟨2, ![1, 4096]⟩
abbrev S150 : Shape := ⟨1, ![150]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S512x512x512, .f32⟩
  | .hbm, ⟨1, _⟩ => ⟨S150x512x512, .f32⟩
  | .hbm, ⟨2, _⟩ => ⟨S512x262144, .f32⟩
  | .hbm, ⟨3, _⟩ => ⟨S150x262144, .f32⟩
  | .hbm, ⟨4, _⟩ => ⟨S2x150x512, .f32⟩
  | .hbm, ⟨5, _⟩ => ⟨S2x150x1, .f32⟩
  | .hbm, ⟨6, _⟩ => ⟨S_, .f32⟩
  | .hbm, ⟨7, _⟩ => ⟨S150x512, .f32⟩
  | .hbm, ⟨8, _⟩ => ⟨S_, .f32⟩
  | .hbm, ⟨9, _⟩ => ⟨S150x1, .f32⟩
  | .hbm, ⟨10, _⟩ => ⟨S_, .f32⟩
  | .hbm, ⟨11, _⟩ => ⟨S150x1, .f32⟩
  | .hbm, ⟨12, _⟩ => ⟨S150x1, .f32⟩
  | .hbm, ⟨13, _⟩ => ⟨S150x512, .f32⟩
  | .hbm, ⟨14, _⟩ => ⟨S150x512, .f32⟩
  | .local _ .vmem, ⟨0, _⟩ => ⟨S150x4096, .f32⟩
  | .local _ .vmem, ⟨1, _⟩ => ⟨S150x4096, .f32⟩
  | .local _ .vmem, ⟨2, _⟩ => ⟨S512x4096, .f32⟩
  | .local _ .vmem, ⟨3, _⟩ => ⟨S512x4096, .f32⟩
  | .local _ .vmem, ⟨4, _⟩ => ⟨S1x150x512, .f32⟩
  | .local _ .vmem, ⟨5, _⟩ => ⟨S1x150x512, .f32⟩
  | .local _ .vmem, ⟨6, _⟩ => ⟨S1x150x1, .f32⟩
  | .local _ .vmem, ⟨7, _⟩ => ⟨S1x150x1, .f32⟩
  | .local _ .vmem, ⟨8, _⟩ => ⟨S150x512, .f32⟩
  | .local _ .vmem, ⟨9, _⟩ => ⟨S150x1, .f32⟩
  | _, _ => ⟨S512x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S150x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x150x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x150x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512x512x512_S512x262144 : S512x512x512.ShapeCasts S512x262144
  shapeCasts_S150x512x512_S150x262144 : S150x512x512.ShapeCasts S150x262144
  inb_S150x512_S150x512_0_0 : ∀ a, (![0, 0] : Fin 2 → Nat) a + S150x512.size a ≤ S150x512.size a
  h_S150x512 : 0 < S150x512.numel
  shapeCasts_S150x512_S150x512 : S150x512.ShapeCasts S150x512
  inb_S150x1_S150x1_0_0 : ∀ a, (![0, 0] : Fin 2 → Nat) a + S150x1.size a ≤ S150x1.size a
  h_S150x1 : 0 < S150x1.numel
  shapeCasts_S150x1_S150x1 : S150x1.ShapeCasts S150x1
  inb_S150x4096_S150x4096_0_0 : ∀ a, (![0, 0] : Fin 2 → Nat) a + S150x4096.size a ≤ S150x4096.size a
  h_S150x4096 : 0 < S150x4096.numel
  shapeCasts_S150x4096_S150x4096 : S150x4096.ShapeCasts S150x4096
  reduces_S150x4096_S4096 : S150x4096.Reduces [0] S4096
  shapeCasts_S4096_S1x4096 : S4096.ShapeCasts S1x4096
  broadcasts_S1x4096_S150x4096 : S1x4096.Broadcasts S150x4096
  reduces_S150x4096_S150 : S150x4096.Reduces [1] S150
  shapeCasts_S150_S150x1 : S150.ShapeCasts S150x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S1x150x512_S1x150x512_0_0_0 : ∀ a, (![0, 0, 0] : Fin 3 → Nat) a + S1x150x512.size a ≤ S1x150x512.size a
  h_S1x150x512 : 0 < S1x150x512.numel
  shapeCasts_S1x150x512_S150x512 : S1x150x512.ShapeCasts S150x512
  shapeCasts_S150x512_S1x150x512 : S150x512.ShapeCasts S1x150x512
  inb_S1x150x1_S1x150x1_0_0_0 : ∀ a, (![0, 0, 0] : Fin 3 → Nat) a + S1x150x1.size a ≤ S1x150x1.size a
  h_S1x150x1 : 0 < S1x150x1.numel
  shapeCasts_S1x150x1_S150x1 : S1x150x1.ShapeCasts S150x1
  shapeCasts_S150x1_S1x150x1 : S150x1.ShapeCasts S1x150x1
  reducesTo_S2x150x512_S150x512_d0 : S2x150x512.ReducesTo [0] S150x512
  h_S_ : 0 < S_.numel
  reducesTo_S2x150x1_S150x1_d0 : S2x150x1.ReducesTo [0] S150x1
  bcast_S_S150x1 : S_.BroadcastsInDim S150x1 (![] : Fin 0 → Fin S150x1.rank)
  bcast_S150x1_S150x512_0_1 : S150x1.BroadcastsInDim S150x512 (![0, 1] : Fin 2 → Fin S150x512.rank)
  dot_S150x4096_S512x4096_S150x512_1_1_0_0_n_n_wf : DotDims.WF S150x4096 S512x4096 S150x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S150x4096.size a ≤ S150x262144.size a
  hwx0_0 : ∀ i : grid0.Coords, EltTy.bits .f32 = 32 ∨ (Rect.block (s := S150x262144) S150x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x262144.size a
  hwx0_1 : ∀ i : grid0.Coords, EltTy.bits .f32 = 32 ∨ (Rect.block (s := S512x262144) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x150x512.size a ≤ S2x150x512.size a
  hwx0_2 : ∀ i : grid0.Coords, EltTy.bits .f32 = 32 ∨ (Rect.block (s := S2x150x512) S1x150x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x150x1.size a ≤ S2x150x1.size a
  hwx0_3 : ∀ i : grid0.Coords, EltTy.bits .f32 = 32 ∨ (Rect.block (s := S2x150x1) S1x150x1.size (cc0_transform_3 i) (hinb0_3 i)).WholeWords (EltTy.packing .f32)

variable [Facts₀]

def dot_S150x4096_S512x4096_S150x512_1_1_0_0_n_n : DotDims S150x4096 S512x4096 S150x512 where
  lhsContracting := [1]
  rhsContracting := [1]
  lhsNonContracting := [0]
  rhsNonContracting := [0]
  lhsBatch := []
  rhsBatch := []
  wf := dot_S150x4096_S512x4096_S150x512_1_1_0_0_n_n_wf

abbrev win0_0 : Pipeline.Window sig grid0 :=
  Pipeline.Window.ofSpec (Memref.whole main_v1) S150x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x150x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x150x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x512x512 : Shape := ⟨3, ![512, 512, 512]⟩
abbrev S150x512x512 : Shape := ⟨3, ![150, 512, 512]⟩
abbrev S512x262144 : Shape := ⟨2, ![512, 262144]⟩
abbrev S262144x512 : Shape := ⟨2, ![262144, 512]⟩
abbrev S150x262144 : Shape := ⟨2, ![150, 262144]⟩
abbrev S262144x150 : Shape := ⟨2, ![262144, 150]⟩
abbrev S_ : Shape := ⟨0, ![]⟩
abbrev S262144 : Shape := ⟨1, ![262144]⟩
abbrev S262144x1 : Shape := ⟨2, ![262144, 1]⟩
abbrev S150 : Shape := ⟨1, ![150]⟩
abbrev S1x150 : Shape := ⟨2, ![1, 150]⟩
abbrev S150x512 : Shape := ⟨2, ![150, 512]⟩

abbrev nBuf : Space → Nat
  | .hbm => 30
  | .vmem => 0
  | .smem => 0
  | _ => 0

abbrev bufTy : (tb : Table) → Fin (tcTables nBuf tb) → BufTy
  | .hbm, ⟨0, _⟩ => ⟨S512x512x512, .f32⟩
  | .hbm, ⟨1, _⟩ => ⟨S150x512x512, .f32⟩
  | .hbm, ⟨2, _⟩ => ⟨S512x262144, .f32⟩
  | .hbm, ⟨3, _⟩ => ⟨S262144x512, .f32⟩
  | .hbm, ⟨4, _⟩ => ⟨S150x262144, .f32⟩
  | .hbm, ⟨5, _⟩ => ⟨S262144x150, .f32⟩
  | .hbm, ⟨6, _⟩ => ⟨S_, .f32⟩
  | .hbm, ⟨7, _⟩ => ⟨S262144, .f32⟩
  | .hbm, ⟨8, _⟩ => ⟨S_, .f32⟩
  | .hbm, ⟨9, _⟩ => ⟨S262144, .f32⟩
  | .hbm, ⟨10, _⟩ => ⟨S262144, .f32⟩
  | .hbm, ⟨11, _⟩ => ⟨S262144x1, .f32⟩
  | .hbm, ⟨12, _⟩ => ⟨S262144x150, .f32⟩
  | .hbm, ⟨13, _⟩ => ⟨S262144x150, .f32⟩
  | .hbm, ⟨14, _⟩ => ⟨S262144x150, .f32⟩
  | .hbm, ⟨15, _⟩ => ⟨S_, .f32⟩
  | .hbm, ⟨16, _⟩ => ⟨S262144, .f32⟩
  | .hbm, ⟨17, _⟩ => ⟨S262144x1, .f32⟩
  | .hbm, ⟨18, _⟩ => ⟨S262144x150, .f32⟩
  | .hbm, ⟨19, _⟩ => ⟨S262144x150, .f32⟩
  | .hbm, ⟨20, _⟩ => ⟨S_, .f32⟩
  | .hbm, ⟨21, _⟩ => ⟨S150, .f32⟩
  | .hbm, ⟨22, _⟩ => ⟨S1x150, .f32⟩
  | .hbm, ⟨23, _⟩ => ⟨S_, .f32⟩
  | .hbm, ⟨24, _⟩ => ⟨S_, .f32⟩
  | .hbm, ⟨25, _⟩ => ⟨S1x150, .f32⟩
  | .hbm, ⟨26, _⟩ => ⟨S1x150, .f32⟩
  | .hbm, ⟨27, _⟩ => ⟨S262144x150, .f32⟩
  | .hbm, ⟨28, _⟩ => ⟨S262144x150, .f32⟩
  | .hbm, ⟨29, _⟩ => ⟨S150x512, .f32⟩
  | _, _ => ⟨S512x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  shapeCasts_S512x512x512_S512x262144 : S512x512x512.ShapeCasts S512x262144
  transposes_S512x262144_S262144x512_1_0 : S512x262144.Transposes [1, 0] S262144x512
  shapeCasts_S150x512x512_S150x262144 : S150x512x512.ShapeCasts S150x262144
  transposes_S150x262144_S262144x150_1_0 : S150x262144.Transposes [1, 0] S262144x150
  reducesTo_S262144x150_S262144_d1 : S262144x150.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x150_0_1 : S262144x1.BroadcastsInDim S262144x150 (![0, 1] : Fin 2 → Fin S262144x150.rank)
  reducesTo_S262144x150_S150_d0 : S262144x150.ReducesTo [0] S150
  bcast_S150_S1x150_1 : S150.BroadcastsInDim S1x150 (![1] : Fin 1 → Fin S1x150.rank)
  bcast_S_S1x150 : S_.BroadcastsInDim S1x150 (![] : Fin 0 → Fin S1x150.rank)
  bcast_S1x150_S262144x150_0_1 : S1x150.BroadcastsInDim S262144x150 (![0, 1] : Fin 2 → Fin S262144x150.rank)
  dot_S262144x150_S262144x512_S150x512_0_0_1_1_n_n_wf : DotDims.WF S262144x150 S262144x512 S150x512 [0] [0] [1] [1] [] []

variable [Facts₀]

def dot_S262144x150_S262144x512_S150x512_0_0_1_1_n_n : DotDims S262144x150 S262144x512 S150x512 where
  lhsContracting := [0]
  rhsContracting := [0]
  lhsNonContracting := [1]
  rhsNonContracting := [1]
  lhsBatch := []
  rhsBatch := []
  wf := dot_S262144x150_S262144x512_S150x512_0_0_1_1_n_n_wf

class Facts : Prop extends Facts₀ where

variable [Facts]
-- ==== Proof.KernelPieces.lean ====
/-
  What each control case of the kernel body leaves behind, as values.

  The body runs in one of three cases: at the first point of a row of the grid it resets the two
  running totals to zero and then adds the point's contribution; at a middle point it adds the point's
  contribution to what the point before left; at the last point of a row it does the same and then copies
  both totals into the two output blocks.  The generated frame states what every case leaves in the
  running totals and in the output blocks as the read-back of the stores it found; here each of those
  read-backs is identified with the body's arithmetic applied to the point's input blocks (and, outside the
  first case, to the totals the point before left).
-/
import proofs.«134938_j48026324304270_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle point -/

/-- A middle point leaves the accumulator at its payload over the point's blocks and the previous accumulator. -/
theorem acc_B (c : Dev nD) (i : grid0.Coords) (arg2 : Memref sig .tc .vmem S150x4096 .f32) (harg2 : arg2.IsWhole) (arg3 : Memref sig .tc .vmem S512x4096 .f32) (harg3 : arg3.IsWhole) (arg4 : Memref sig .tc .vmem S1x150x512 .f32) (harg4 : arg4.IsWhole) (arg5 : Memref sig .tc .vmem S1x150x1 .f32) (harg5 : arg5.IsWhole) (arg6 : Memref sig .tc .vmem S150x512 .f32) (harg6 : arg6.IsWhole) (arg7 : Memref sig .tc .vmem S150x1 .f32) (harg7 : arg7.IsWhole) (hc0 : ¬cond0_0 i) (hc1 : ¬cond0_1 i)
    (x0 : Vec F S150x4096 .f32) (x1 : Vec F S512x4096 .f32) (xs0 : Vec F S150x512 .f32) (xs1 : Vec F S150x1 .f32) :
    sout0_B_0 c i arg2 harg2 arg3 harg3 arg4 harg4 arg5 harg5 arg6 harg6 arg7 harg7 hc0 hc1 x0 x1 xs0 xs1 = k0_pay5 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  rw [View.canon_unit_zero hz2]
  simp only [View.readAt_eq_ld, harg2.read_unread, harg3.read_unread, harg6.read_unread, harg7.read_unread,
    View.ld_unit_zero (S := S150x4096) hz2, View.ld_unit_zero (S := S512x4096) hz2, View.ld_unit_zero (S := S150x512) hz2,
    View.ld_unit_zero (S := S150x1) hz2]

/-- A middle point leaves the column total at its payload over the score block and the previous total. -/
theorem col_B (c : Dev nD) (i : grid0.Coords) (arg2 : Memref sig .tc .vmem S150x4096 .f32) (harg2 : arg2.IsWhole) (arg3 : Memref sig .tc .vmem S512x4096 .f32) (harg3 : arg3.IsWhole) (arg4 : Memref sig .tc .vmem S1x150x512 .f32) (harg4 : arg4.IsWhole) (arg5 : Memref sig .tc .vmem S1x150x1 .f32) (harg5 : arg5.IsWhole) (arg6 : Memref sig .tc .vmem S150x512 .f32) (harg6 : arg6.IsWhole) (arg7 : Memref sig .tc .vmem S150x1 .f32) (harg7 : arg7.IsWhole) (hc0 : ¬cond0_0 i) (hc1 : ¬cond0_1 i)
    (x0 : Vec F S150x4096 .f32) (x1 : Vec F S512x4096 .f32) (xs0 : Vec F S150x512 .f32) (xs1 : Vec F S150x1 .f32) :
    sout0_B_1 c i arg2 harg2 arg3 harg3 arg4 harg4 arg5 harg5 arg6 harg6 arg7 harg7 hc0 hc1 x0 x1 xs0 xs1 = k0_pay4 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  rw [View.canon_unit_zero hz2]
  simp only [View.readAt_eq_ld, harg2.read_unread, harg3.read_unread, harg6.read_unread, harg7.read_unread,
    View.ld_unit_zero (S := S150x4096) hz2, View.ld_unit_zero (S := S512x4096) hz2, View.ld_unit_zero (S := S150x512) hz2,
    View.ld_unit_zero (S := S150x1) hz2]

/-! ## The last point of a row -/

theorem acc_C (c : Dev nD) (i : grid0.Coords) (arg2 : Memref sig .tc .vmem S150x4096 .f32) (harg2 : arg2.IsWhole) (arg3 : Memref sig .tc .vmem S512x4096 .f32) (harg3 : arg3.IsWhole) (arg4 : Memref sig .tc .vmem S1x150x512 .f32) (harg4 : arg4.IsWhole) (arg5 : Memref sig .tc .vmem S1x150x1 .f32) (harg5 : arg5.IsWhole) (arg6 : Memref sig .tc .vmem S150x512 .f32) (harg6 : arg6.IsWhole) (arg7 : Memref sig .tc .vmem S150x1 .f32) (harg7 : arg7.IsWhole) (hc0 : ¬cond0_0 i) (hc1 : cond0_1 i)
    (x0 : Vec F S150x4096 .f32) (x1 : Vec F S512x4096 .f32) (xs0 : Vec F S150x512 .f32) (xs1 : Vec F S150x1 .f32) :
    sout0_C_0 c i arg2 harg2 arg3 harg3 arg4 harg4 arg5 harg5 arg6 harg6 arg7 harg7 hc0 hc1 x0 x1 xs0 xs1 = k0_pay5 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S150x4096) hz2, View.ld_unit_zero (S := S512x4096) hz2, View.ld_unit_zero (S := S150x512) hz2,
    View.ld_unit_zero (S := S150x1) hz2]

theorem col_C (c : Dev nD) (i : grid0.Coords) (arg2 : Memref sig .tc .vmem S150x4096 .f32) (harg2 : arg2.IsWhole) (arg3 : Memref sig .tc .vmem S512x4096 .f32) (harg3 : arg3.IsWhole) (arg4 : Memref sig .tc .vmem S1x150x512 .f32) (harg4 : arg4.IsWhole) (arg5 : Memref sig .tc .vmem S1x150x1 .f32) (harg5 : arg5.IsWhole) (arg6 : Memref sig .tc .vmem S150x512 .f32) (harg6 : arg6.IsWhole) (arg7 : Memref sig .tc .vmem S150x1 .f32) (harg7 : arg7.IsWhole) (hc0 : ¬cond0_0 i) (hc1 : cond0_1 i)
    (x0 : Vec F S150x4096 .f32) (x1 : Vec F S512x4096 .f32) (xs0 : Vec F S150x512 .f32) (xs1 : Vec F S150x1 .f32) :
    sout0_C_1 c i arg2 harg2 arg3 harg3 arg4 harg4 arg5 harg5 arg6 harg6 arg7 harg7 hc0 hc1 x0 x1 xs0 xs1 = k0_pay4 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S150x4096) hz2, View.ld_unit_zero (S := S512x4096) hz2, View.ld_unit_zero (S := S150x512) hz2,
    View.ld_unit_zero (S := S150x1) hz2]

/-- The last point of a row copies the finished accumulator into the first output block. -/
theorem out2_C (c : Dev nD) (i : grid0.Coords) (arg2 : Memref sig .tc .vmem S150x4096 .f32) (harg2 : arg2.IsWhole) (arg3 : Memref sig .tc .vmem S512x4096 .f32) (harg3 : arg3.IsWhole) (arg4 : Memref sig .tc .vmem S1x150x512 .f32) (harg4 : arg4.IsWhole) (arg5 : Memref sig .tc .vmem S1x150x1 .f32) (harg5 : arg5.IsWhole) (arg6 : Memref sig .tc .vmem S150x512 .f32) (harg6 : arg6.IsWhole) (arg7 : Memref sig .tc .vmem S150x1 .f32) (harg7 : arg7.IsWhole) (hc0 : ¬cond0_0 i) (hc1 : cond0_1 i)
    (x0 : Vec F S150x4096 .f32) (x1 : Vec F S512x4096 .f32) (xs0 : Vec F S150x512 .f32) (xs1 : Vec F S150x1 .f32) :
    out0_C_2 c i arg2 harg2 arg3 harg3 arg4 harg4 arg5 harg5 arg6 harg6 arg7 harg7 hc0 hc1 x0 x1 xs0 xs1 = k0_pay6 (k0_pay5 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S150x512) _ hz2]
  simp only [View.readAt_eq_ld, harg2.read_unread, harg3.read_unread, harg6.read_unread, harg7.read_unread,
    View.ld_unit_zero (S := S150x4096) hz2, View.ld_unit_zero (S := S512x4096) hz2, View.ld_unit_zero (S := S150x512) hz2,
    View.ld_unit_zero (S := S150x1) hz2]

/-- The last point of a row copies the finished column total into the second output block. -/
theorem out3_C (c : Dev nD) (i : grid0.Coords) (arg2 : Memref sig .tc .vmem S150x4096 .f32) (harg2 : arg2.IsWhole) (arg3 : Memref sig .tc .vmem S512x4096 .f32) (harg3 : arg3.IsWhole) (arg4 : Memref sig .tc .vmem S1x150x512 .f32) (harg4 : arg4.IsWhole) (arg5 : Memref sig .tc .vmem S1x150x1 .f32) (harg5 : arg5.IsWhole) (arg6 : Memref sig .tc .vmem S150x512 .f32) (harg6 : arg6.IsWhole) (arg7 : Memref sig .tc .vmem S150x1 .f32) (harg7 : arg7.IsWhole) (hc0 : ¬cond0_0 i) (hc1 : cond0_1 i)
    (x0 : Vec F S150x4096 .f32) (x1 : Vec F S512x4096 .f32) (xs0 : Vec F S150x512 .f32) (xs1 : Vec F S150x1 .f32) :
    out0_C_3 c i arg2 harg2 arg3 harg3 arg4 harg4 arg5 harg5 arg6 harg6 arg7 harg7 hc0 hc1 x0 x1 xs0 xs1 = k0_pay7 (k0_pay4 x0 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S150x1) _ hz2]
  simp only [View.readAt_eq_ld, harg2.read_unread, harg3.read_unread, harg6.read_unread, harg7.read_unread,
    View.ld_unit_zero (S := S150x4096) hz2, View.ld_unit_zero (S := S512x4096) hz2, View.ld_unit_zero (S := S150x512) hz2,
    View.ld_unit_zero (S := S150x1) hz2]

/-! ## The first point of a row -/

theorem acc_A (c : Dev nD) (i : grid0.Coords) (arg2 : Memref sig .tc .vmem S150x4096 .f32) (harg2 : arg2.IsWhole) (arg3 : Memref sig .tc .vmem S512x4096 .f32) (harg3 : arg3.IsWhole) (arg4 : Memref sig .tc .vmem S1x150x512 .f32) (harg4 : arg4.IsWhole) (arg5 : Memref sig .tc .vmem S1x150x1 .f32) (harg5 : arg5.IsWhole) (arg6 : Memref sig .tc .vmem S150x512 .f32) (harg6 : arg6.IsWhole) (arg7 : Memref sig .tc .vmem S150x1 .f32) (harg7 : arg7.IsWhole) (hc0 : cond0_0 i) (hc1 : ¬cond0_1 i)
    (x0 : Vec F S150x4096 .f32) (x1 : Vec F S512x4096 .f32) :
    sout0_A_0 c i arg2 harg2 arg3 harg3 arg4 harg4 arg5 harg5 arg6 harg6 arg7 harg7 hc0 hc1 x0 x1 = k0_pay5 x0 x1 k0_pay1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S150x512) hz2, View.readCov_unit_zero (S := S150x512) _ hz2]
  simp only [View.readAt_eq_ld, harg2.read_unread, harg3.read_unread, harg6.read_unread, harg7.read_unread,
    View.ld_unit_zero (S := S150x4096) hz2, View.ld_unit_zero (S := S512x4096) hz2, View.ld_unit_zero (S := S150x512) hz2,
    View.ld_unit_zero (S := S150x1) hz2]

theorem col_A (c : Dev nD) (i : grid0.Coords) (arg2 : Memref sig .tc .vmem S150x4096 .f32) (harg2 : arg2.IsWhole) (arg3 : Memref sig .tc .vmem S512x4096 .f32) (harg3 : arg3.IsWhole) (arg4 : Memref sig .tc .vmem S1x150x512 .f32) (harg4 : arg4.IsWhole) (arg5 : Memref sig .tc .vmem S1x150x1 .f32) (harg5 : arg5.IsWhole) (arg6 : Memref sig .tc .vmem S150x512 .f32) (harg6 : arg6.IsWhole) (arg7 : Memref sig .tc .vmem S150x1 .f32) (harg7 : arg7.IsWhole) (hc0 : cond0_0 i) (hc1 : ¬cond0_1 i)
    (x0 : Vec F S150x4096 .f32) (x1 : Vec F S512x4096 .f32) :
    sout0_A_1 c i arg2 harg2 arg3 harg3 arg4 harg4 arg5 harg5 arg6 harg6 arg7 harg7 hc0 hc1 x0 x1 = k0_pay4 x0 k0_pay2 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S150x1) hz2, View.readCov_unit_zero (S := S150x1) _ hz2]
  simp only [View.readAt_eq_ld, harg2.read_unread, harg3.read_unread, harg6.read_unread, harg7.read_unread,
    View.ld_unit_zero (S := S150x4096) hz2, View.ld_unit_zero (S := S512x4096) hz2, View.ld_unit_zero (S := S150x512) hz2,
    View.ld_unit_zero (S := S150x1) hz2]

end Cert.KernelIdeal.Pieces

end
-- ==== Proof.Softmax.lean ====
/-
  The mathematics shared by the two programs, over abstract finite index types.

  A pixel's class scores `v` become probabilities `exp (v k - max v) / ∑ k', exp (v k' - max v)`
  (`colProb`); a class's column total is the sum of its probabilities over all pixels (`colsum`); the
  pooled context of class `k` and channel `c` is the probability-weighted sum of the features over the
  pixels, divided by the column total clamped from below by `ε`.  One program divides every weight
  before summing (`ctxRef`), the other divides the finished sum once (`ctxKernel`).  Over the reals
  the two agree because a nonzero real divisor can be pulled out of a finite sum; on the extended
  reals that law needs every term finite, which is what the finiteness hypotheses provide.

  The last part regroups a sum over `A * B * C` consecutive naturals as a triple sum, the order in
  which a grid of `A` rows of `B` blocks of `C` lanes visits them.
-/
import Idealize.ShloMosaic.PureOps.Ideal
import Idealize.ShloMosaic.PureOps.Ideal.Laws

noncomputable section

namespace SpatialGather

open Idealize.ShloMosaic

/-! ## Literals -/

/-- The pattern of negative infinity denotes the bottom of the extended reals. -/
theorem ofBits_negInf : Ideal.ofBits .f32 0xFF800000#32 = (⊥ : EReal) := by
  simp [Ideal.ofBits, Ideal.ieee]

/-- The clamp `0x358637BD` (the float nearest to `1e-6`) denotes a positive real. -/
theorem ofBits_eps_pos : ∃ e : ℝ, 0 < e ∧ Ideal.ofBits .f32 0x358637BD#32 = (e : EReal) := by
  -- exponent field 107 and fraction field 407485: the normal number (2 ^ 23 + 407485) · 2 ^ (107 - 127 - 23)
  refine ⟨(8796093 : ℝ) * ((2 : ℝ) ^ 43)⁻¹, by positivity, ?_⟩
  simp [Ideal.ofBits, Ideal.ieee]

/-! ## Finite sums of reals -/

/-- The embedding of the reals into the extended reals commutes with finite sums:
    `↑(∑ i ∈ s, f i) = ∑ i ∈ s, ↑(f i)`. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One column -/

section Column

variable {κ : Type} [Fintype κ]

/-- The maximum of a column, folded from `b`. -/
def colMax (b : EReal) (v : κ → EReal) : EReal := (Finset.univ : Finset κ).fold max b v

/-- Folding the maximum from `b` already dominates `b`. -/
theorem max_colMax (b : EReal) (v : κ → EReal) : max b (colMax b v) = colMax b v := by
  apply max_eq_right
  unfold colMax
  rw [Finset.le_fold_max]
  exact Or.inl le_rfl

/-- The maximum of a nonempty column of reals is a real: it is below `⊤` because every entry is, and
    above `⊥` because some entry is. -/
theorem colMax_real [Nonempty κ] (v : κ → EReal) (hv : ∀ k, ∃ r : ℝ, v k = (r : EReal)) :
    ∃ m : ℝ, colMax ⊥ v = (m : EReal) := by
  have hlt : colMax ⊥ v < ⊤ := by
    unfold colMax
    rw [Finset.fold_max_lt]
    refine ⟨bot_lt_top, fun k _ => ?_⟩
    obtain ⟨r, hr⟩ := hv k
    rw [hr]
    exact EReal.coe_lt_top r
  have hgt : ⊥ < colMax ⊥ v := by
    unfold colMax
    rw [Finset.lt_fold_max]
    obtain ⟨k₀⟩ := ‹Nonempty κ›
    obtain ⟨r, hr⟩ := hv k₀
    refine Or.inr ⟨k₀, Finset.mem_univ _, ?_⟩
    rw [hr]
    exact EReal.bot_lt_coe r
  exact ⟨(colMax ⊥ v).toReal, (EReal.coe_toReal hlt.ne hgt.ne').symm⟩

/-- The shifted exponential of a column's entry. -/
def colExp (b : EReal) (v : κ → EReal) (k : κ) : EReal := Ideal.exp (v k - colMax b v)

/-- The softmax of a column at class `k`. -/
def colProb (b : EReal) (v : κ → EReal) (k : κ) : EReal :=
  Ideal.div (colExp b v k) (∑ k', colExp b v k')

/-- The softmax of a column of reals is a real (the classes are not empty, so the maximum is attained
    and the normalizer is positive). -/
theorem colProb_real [Nonempty κ] (v : κ → EReal) (hv : ∀ k, ∃ r : ℝ, v k = (r : EReal)) (k : κ) :
    ∃ p : ℝ, colProb ⊥ v k = (p : EReal) := by
  choose r hr using hv
  obtain ⟨m, hm⟩ := colMax_real v (fun k => ⟨r k, hr k⟩)
  have hexp : ∀ k', colExp ⊥ v k' = ((Real.exp (r k' - m) : ℝ) : EReal) := fun k' => by
    unfold colExp
    rw [hm, hr k', ← EReal.coe_sub, Ideal.exp_coe]
  have hz : (∑ k', Real.exp (r k' - m)) ≠ 0 :=
    (Finset.sum_pos (fun k' _ => Real.exp_pos _) Finset.univ_nonempty).ne'
  refine ⟨Real.exp (r k - m) * (1 / ∑ k', Real.exp (r k' - m)), ?_⟩
  unfold colProb
  simp_rw [hexp]
  rw [← coe_finsum, Ideal.div_coe hz, ← EReal.coe_mul]

end Column

/-! ## All pixels -/

section Pixels

variable {κ ν γ : Type} [Fintype κ] [Fintype ν] [Fintype γ]

/-- The probability of class `k` at pixel `n`. -/
def prob (b : EReal) (L : κ → ν → EReal) (k : κ) (n : ν) : EReal := colProb b (fun k' => L k' n) k

/-- The total of class `k`'s probabilities over the pixels. -/
def colsum (b : EReal) (L : κ → ν → EReal) (k : κ) : EReal := ∑ n, prob b L k n

/-- The unnormalized pooled feature: the probability-weighted sum over the pixels. -/
def wsum (b : EReal) (L : κ → ν → EReal) (Fm : γ → ν → EReal) (k : κ) (c : γ) : EReal :=
  ∑ n, prob b L k n * Fm c n

/-- Divide the finished sum once. -/
def ctxKernel (b ε : EReal) (L : κ → ν → EReal) (Fm : γ → ν → EReal) (k : κ) (c : γ) : EReal :=
  Ideal.div (wsum b L Fm k c) (max (colsum b L k) ε)

/-- Divide every weight, then sum. -/
def ctxRef (b ε : EReal) (L : κ → ν → EReal) (Fm : γ → ν → EReal) (k : κ) (c : γ) : EReal :=
  ∑ n, Ideal.div (prob b L k n) (max ε (colsum b L k)) * Fm c n

/-- On finite scores and features the two orders of division agree. -/
theorem ctxRef_eq_ctxKernel [Nonempty κ] (ε : EReal) (hε : ∃ e : ℝ, 0 < e ∧ ε = (e : EReal))
    (L : κ → ν → EReal) (Fm : γ → ν → EReal)
    (hL : ∀ k n, ∃ r : ℝ, L k n = (r : EReal)) (hF : ∀ c n, ∃ r : ℝ, Fm c n = (r : EReal))
    (k : κ) (c : γ) : ctxRef ⊥ ε L Fm k c = ctxKernel ⊥ ε L Fm k c := by
  obtain ⟨e, he, rfl⟩ := hε
  have hp : ∀ k n, ∃ p : ℝ, prob ⊥ L k n = (p : EReal) := fun k n =>
    colProb_real (fun k' => L k' n) (fun k' => hL k' n) k
  choose p hp using hp
  choose f hf using hF
  have hs : colsum ⊥ L k = ((∑ n, p k n : ℝ) : EReal) := by
    unfold colsum
    rw [coe_finsum]
    exact Finset.sum_congr rfl (fun n _ => hp k n)
  have hd : max (colsum ⊥ L k) (e : EReal) = ((max (∑ n, p k n) e : ℝ) : EReal) := by
    rw [hs]
    exact (EReal.coe_strictMono.monotone.map_max).symm
  have hd0 : max (∑ n, p k n) e ≠ 0 := (lt_of_lt_of_le he (le_max_right _ _)).ne'
  unfold ctxRef ctxKernel wsum
  rw [max_comm, hd]
  simp_rw [hp, hf, Ideal.div_coe hd0, ← EReal.coe_mul, ← coe_finsum]
  rw [← EReal.coe_mul, Finset.sum_mul]
  congr 1
  exact Finset.sum_congr rfl (fun n _ => by ring)

end Pixels

/-! ## Regrouping a long sum -/

/-- A function on `Fin N` extended by zero to every natural. -/
def ext0 {N : ℕ} (f : Fin N → EReal) (n : ℕ) : EReal := if h : n < N then f ⟨n, h⟩ else 0

theorem ext0_val {N : ℕ} (f : Fin N → EReal) (i : Fin N) : ext0 f i.val = f i := by
  unfold ext0
  rw [dif_pos i.isLt]

theorem ext0_of_lt {N : ℕ} (f : Fin N → EReal) (n : ℕ) (h : n < N) : ext0 f n = f ⟨n, h⟩ := by
  unfold ext0
  rw [dif_pos h]

/-- `A * B` consecutive naturals, visited as `A` runs of `B`. -/
theorem sum_range_mul {M : Type*} [AddCommMonoid M] (A B : ℕ) (f : ℕ → M) :
    ∑ n ∈ Finset.range (A * B), f n = ∑ a ∈ Finset.range A, ∑ b ∈ Finset.range B, f (B * a + b) := by
  induction A with
  | zero => simp
  | succ A ih =>
    rw [Nat.succ_mul, Finset.sum_range_add, ih, Finset.sum_range_succ, Nat.mul_comm A B]

/-- `A * B * C` consecutive naturals, visited as `A` rows of `B` blocks of `C` lanes. -/
theorem sum_grid {M : Type*} [AddCommMonoid M] (N A B C : ℕ) (hN : N = A * B * C) (T : ℕ → M) :
    ∑ n : Fin N, T n.val
      = ∑ o : Fin A, ∑ s ∈ Finset.range B, ∑ l : Fin C, T (C * (B * o.val + s) + l.val) := by
  subst hN
  rw [Fin.sum_univ_eq_sum_range (fun n => T n) (A * B * C), sum_range_mul (A * B) C, sum_range_mul A B,
    Fin.sum_univ_eq_sum_range
      (fun a => ∑ s ∈ Finset.range B, ∑ l : Fin C, T (C * (B * a + s) + l.val)) A]
  refine Finset.sum_congr rfl fun a _ => Finset.sum_congr rfl fun s _ => ?_
  exact (Fin.sum_univ_eq_sum_range (fun l => T (C * (B * a + s) + l)) C).symm

end SpatialGather

end
-- ==== Proof.KernelPay.lean ====
/-
  The kernel body's arithmetic at one grid point, read at an index on the extended reals.

  A point holds a block `x` of class scores (150 classes by 4096 pixels) and a block `y` of features
  (512 channels by 4096 pixels).  The body forms the softmax over the classes of every pixel of the
  block, adds each class's probabilities over the block's pixels into a running column total, and adds
  the products "probability times feature", summed over the block's pixels, into a running 150 by 512
  accumulator.  Each lemma below states one of these values at explicit coordinates.
-/
import proofs.«134938_j48026324304270_1_alg».proof.Proof.Gen.KernelIdeal.Skeleton
import proofs.«134938_j48026324304270_1_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx SpatialGather

/-- The value the class maximum is folded from: the pattern of negative infinity. -/
abbrev negInf : EReal := Ideal.ofBits .f32 0xFF800000#32

/-! ## Indices -/

/-- Class `k` inserted above pixel `l` is the index `(k, l)` of the block. -/
theorem lift_class (l : Fin 4096) (k : Fin 150) :
    reduces_S150x4096_S4096.lift (ix1 l) k = (ix2 k l : S150x4096.Idx) :=
  funext fun a => Fin.ext (by match a with | ⟨0, _⟩ => rfl | ⟨1, _⟩ => rfl)

/-- Pixel `l` inserted after class `k` is the index `(k, l)` of the block. -/
theorem lift_pixel (k : Fin 150) (l : Fin 4096) :
    reduces_S150x4096_S150.lift (ix1 k) l = (ix2 k l : S150x4096.Idx) :=
  funext fun a => Fin.ext (by match a with | ⟨0, _⟩ => rfl | ⟨1, _⟩ => rfl)

/-! ## Reductions of a block -/

/-- The maximum over the classes, at pixel `l`. -/
theorem classMax_at (x : FVec Ideal S150x4096 .f32) (l : Fin 4096) :
    multiReduction .maximumf [0] S4096 x 0xFF800000#32 reduces_S150x4096_S4096 (.inl rfl) rfl (ix1 l)
      = colMax negInf (fun k : Fin 150 => x (ix2 k l)) := by
  refine (Ideal.multiReduction_maximumf_single x 0xFF800000#32 reduces_S150x4096_S4096 (.inl rfl) rfl (ix1 l)).trans ?_
  unfold colMax
  exact congrArg (fun f => (Finset.univ : Finset (Fin 150)).fold max negInf f)
    (funext fun k => congrArg x (lift_class l k))

/-- The sum over the classes, at pixel `l`. -/
theorem classSum_at (y : FVec Ideal S150x4096 .f32) (l : Fin 4096) :
    multiReduction .add [0] S4096 y 0x00000000#32 reduces_S150x4096_S4096 (.inl rfl) rfl (ix1 l)
      = ∑ k : Fin 150, y (ix2 k l) := by
  refine (Ideal.multiReduction_add_single y 0x00000000#32 reduces_S150x4096_S4096 (.inl rfl) rfl (ix1 l)).trans ?_
  exact Finset.sum_congr rfl fun k _ => congrArg y (lift_class l k)

/-- The sum over the block's pixels, at class `k`. -/
theorem pixelSum_at (y : FVec Ideal S150x4096 .f32) (k : Fin 150) :
    multiReduction .add [1] S150 y 0x00000000#32 reduces_S150x4096_S150 (.inl rfl) rfl (ix1 k)
      = ∑ l : Fin 4096, y (ix2 k l) := by
  refine (Ideal.multiReduction_add_single y 0x00000000#32 reduces_S150x4096_S150 (.inl rfl) rfl (ix1 k)).trans ?_
  exact Finset.sum_congr rfl fun l _ => congrArg y (lift_pixel k l)

/-- A per-pixel row kept as a 1 by 4096 array and repeated over the classes reads, at `(k, l)`, the row at `l`. -/
theorem keepRow_at (r : FVec Ideal S4096 .f32) (k : Fin 150) (l : Fin 4096) :
    broadcastTo S150x4096 (shapeCast S1x4096 r shapeCasts_S4096_S1x4096) broadcasts_S1x4096_S150x4096 (ix2 k l)
      = r (ix1 l) :=
  (broadcastTo_1b_ab_apply _ broadcasts_S1x4096_S150x4096 k l).trans
    (shapeCast_a_1a_apply r shapeCasts_S4096_S1x4096 0 l)

/-- A per-class vector cast to a 150 by 1 column reads, at `(k, 0)`, the vector at `k`. -/
theorem keepCol_at (v : FVec Ideal S150 .f32) (k : Fin 150) (z : Fin 1) :
    shapeCast S150x1 v shapeCasts_S150_S150x1 (ix2 k z) = v (ix1 k) :=
  shapeCast_apply v shapeCasts_S150_S150x1 _ _ (by
    have hz : z.val = 0 := by omega
    rw [Shape.rowMajor_val_one, Shape.rowMajor_val_two]
    show k.val = k.val * 1 + z.val
    omega)

/-! ## The softmax of a block -/

/-- The shifted exponentials of a block. -/
def expBlock (x : FVec Ideal S150x4096 .f32) : FVec Ideal S150x4096 .f32 :=
  exp (subf x (broadcastTo S150x4096 (shapeCast S1x4096
    (multiReduction .maximumf [0] S4096 x 0xFF800000#32 reduces_S150x4096_S4096 (.inl rfl) rfl)
    shapeCasts_S4096_S1x4096) broadcasts_S1x4096_S150x4096))

/-- The softmax over the classes of a block. -/
def probBlock (x : FVec Ideal S150x4096 .f32) : FVec Ideal S150x4096 .f32 :=
  divf (expBlock x) (broadcastTo S150x4096 (shapeCast S1x4096
    (multiReduction .add [0] S4096 (expBlock x) 0x00000000#32 reduces_S150x4096_S4096 (.inl rfl) rfl)
    shapeCasts_S4096_S1x4096) broadcasts_S1x4096_S150x4096)

theorem expBlock_at (x : FVec Ideal S150x4096 .f32) (k : Fin 150) (l : Fin 4096) :
    expBlock x (ix2 k l) = colExp negInf (fun k' : Fin 150 => x (ix2 k' l)) k := by
  unfold expBlock colExp
  show Ideal.exp (x (ix2 k l) - broadcastTo S150x4096 _ broadcasts_S1x4096_S150x4096 (ix2 k l)) = _
  rw [keepRow_at, classMax_at]

theorem probBlock_at (x : FVec Ideal S150x4096 .f32) (k : Fin 150) (l : Fin 4096) :
    probBlock x (ix2 k l) = colProb negInf (fun k' : Fin 150 => x (ix2 k' l)) k := by
  unfold probBlock colProb
  show Ideal.div (expBlock x (ix2 k l)) (broadcastTo S150x4096 _ broadcasts_S1x4096_S150x4096 (ix2 k l)) = _
  rw [keepRow_at, classSum_at, expBlock_at]
  exact congrArg _ (Finset.sum_congr rfl fun k' _ => expBlock_at x k' l)

/-- The printed softmax payload is the softmax of the block. -/
theorem pay3_eq (x : Vec Ideal S150x4096 .f32) : k0_pay3 (F := Ideal) x = probBlock x := by
  unfold k0_pay3 probBlock expBlock
  simp only [shapeCast_self]

/-! ## The running column total -/

/-- The column-total payload at class `k`: what the scratch held plus the class's probabilities summed
    over the block's pixels. -/
theorem pay4_at (x : Vec Ideal S150x4096 .f32) (col : Vec Ideal S150x1 .f32) (k : Fin 150) (z : Fin 1) :
    k0_pay4 (F := Ideal) x col (ix2 k z)
      = col (ix2 k z) + ∑ l : Fin 4096, colProb negInf (fun k' : Fin 150 => x (ix2 k' l)) k := by
  unfold k0_pay4
  simp only [shapeCast_self, pay3_eq]
  show col (ix2 k z) + shapeCast S150x1 _ shapeCasts_S150_S150x1 (ix2 k z) = _
  rw [keepCol_at, pixelSum_at]
  exact congrArg _ (Finset.sum_congr rfl fun l _ => probBlock_at x k l)

/-! ## The running accumulator -/

/-- The dimension numbers of the body's product: both operands are contracted along their pixel axis. -/
abbrev dotKC := dot_S150x4096_S512x4096_S150x512_1_1_0_0_n_n

theorem dot_lhs_class (i : S150x512.Idx) (q : dotKC.contr.Idx) : (dotKC.lhsIdx i q 0).val = (i 0).val := by
  unfold DotDims.lhsIdx
  rw [dif_neg (show ¬(0 : Fin S150x4096.rank) ∈ dotKC.lhsBatch by decide),
    dif_pos (show (0 : Fin S150x4096.rank) ∈ dotKC.lhsNonContracting by decide)]
  rfl

theorem dot_lhs_pixel (i : S150x512.Idx) (q : dotKC.contr.Idx) :
    (dotKC.lhsIdx i q 1).val = (q ⟨0, by decide⟩).val :=
  dotKC.lhsIdx_val_of_single rfl i q

theorem dot_rhs_channel (i : S150x512.Idx) (q : dotKC.contr.Idx) : (dotKC.rhsIdx i q 0).val = (i 1).val := by
  unfold DotDims.rhsIdx
  rw [dif_neg (show ¬(0 : Fin S512x4096.rank) ∈ dotKC.rhsBatch by decide),
    dif_pos (show (0 : Fin S512x4096.rank) ∈ dotKC.rhsNonContracting by decide)]
  rfl

theorem dot_rhs_pixel (i : S150x512.Idx) (q : dotKC.contr.Idx) :
    (dotKC.rhsIdx i q 1).val = (q ⟨0, by decide⟩).val :=
  dotKC.rhsIdx_val_of_single rfl i q

/-- The product of a block of weights with a block of features, both contracted along the pixels, into the zero
    accumulator: at `(k, c)` the sum over the block's pixels of weight `(k, l)` times feature `(c, l)`. -/
theorem blockDot_at (p : FVec Ideal S150x4096 .bf16) (y : FVec Ideal S512x4096 .bf16) (k : Fin 150) (c : Fin 512) :
    matmul dotKC none p y (constant S150x512 .f32 0x00000000#32) (ix2 k c)
      = ∑ l : Fin 4096, p (ix2 k l) * y (ix2 c l) := by
  simp only [matmul]
  rw [Ideal.matmul_constant_zero_apply, ← Equiv.sum_comp (contrEquiv1 dotKC 4096 rfl rfl).symm]
  refine Finset.sum_congr rfl fun l _ => ?_
  have hl := contrEquiv1_symm_val dotKC 4096 rfl rfl l
  have el : dotKC.lhsIdx (ix2 k c) ((contrEquiv1 dotKC 4096 rfl rfl).symm l) = (ix2 k l : S150x4096.Idx) :=
    funext fun a => Fin.ext (by
      match a with
      | ⟨0, _⟩ => exact dot_lhs_class _ _
      | ⟨1, _⟩ => exact (dot_lhs_pixel _ _).trans hl)
  have er : dotKC.rhsIdx (ix2 k c) ((contrEquiv1 dotKC 4096 rfl rfl).symm l) = (ix2 c l : S512x4096.Idx) :=
    funext fun a => Fin.ext (by
      match a with
      | ⟨0, _⟩ => exact dot_rhs_channel _ _
      | ⟨1, _⟩ => exact (dot_rhs_pixel _ _).trans hl)
  rw [el, er]

/-- The accumulator payload at `(k, c)`: what the scratch held plus the block's probability-weighted features. -/
theorem pay5_at (x : Vec Ideal S150x4096 .f32) (y : Vec Ideal S512x4096 .f32) (acc : Vec Ideal S150x512 .f32)
    (k : Fin 150) (c : Fin 512) :
    k0_pay5 (F := Ideal) x y acc (ix2 k c)
      = acc (ix2 k c) + ∑ l : Fin 4096, colProb negInf (fun k' : Fin 150 => x (ix2 k' l)) k * y (ix2 c l) := by
  unfold k0_pay5
  simp only [shapeCast_self, pay3_eq]
  show acc (ix2 k c) + matmul (F := Ideal) dotKC none (truncf .bf16 (probBlock x) bitsLt_bf16_f32)
      (truncf .bf16 y bitsLt_bf16_f32) (constant (F := Ideal) S150x512 .f32 0x00000000#32) (ix2 k c) = _
  rw [blockDot_at]
  exact congrArg _ (Finset.sum_congr rfl fun l _ => congrArg (· * y (ix2 c l)) (probBlock_at x k l))

/-! ## The resets and the copies out -/

/-- The accumulator is reset to zero. -/
theorem pay1_at (i : S150x512.Idx) : k0_pay1 (F := Ideal) i = 0 := by
  unfold k0_pay1
  simp only [shapeCast_self]
  exact Ideal.ofBits_zero_f32

/-- The column total is reset to zero. -/
theorem pay2_at (i : S150x1.Idx) : k0_pay2 (F := Ideal) i = 0 := by
  unfold k0_pay2
  simp only [shapeCast_self]
  exact Ideal.ofBits_zero_f32

/-- The accumulator copied into the output block: a unit axis in front. -/
theorem pay6_at (acc : Vec Ideal S150x512 .f32) (u : Fin 1) (k : Fin 150) (c : Fin 512) :
    k0_pay6 (F := Ideal) acc (ix3 u k c) = acc (ix2 k c) := by
  unfold k0_pay6
  exact shapeCast_ab_1ab_apply acc shapeCasts_S150x512_S1x150x512 u k c

/-- The column total copied into the output block: a unit axis in front. -/
theorem pay7_at (col : Vec Ideal S150x1 .f32) (u : Fin 1) (k : Fin 150) (z : Fin 1) :
    k0_pay7 (F := Ideal) col (ix3 u k z) = col (ix2 k z) := by
  unfold k0_pay7
  exact shapeCast_ab_1ab_apply col shapeCasts_S150x1_S1x150x1 u k z

end Cert.KernelIdeal.Pay

end
-- ==== Proof.KernelAcc.lean ====
/-
  The running totals over the grid, as folds.

  The grid has two rows of 32 points; a row's first point resets the two running totals, every later point adds
  its contribution to what the point before left.  So after the point at position `32 q + j` the running
  accumulator is the fold of the accumulator payload over the points `32 q, …, 32 q + j`, and likewise the running
  column total: by induction along the row, never by listing the points.  On the extended reals each fold is a
  plain sum of the points' contributions.  The last point of a row copies both totals into the output blocks.
-/
import proofs.«134938_j48026324304270_1_alg».proof.Proof.KernelPieces
import proofs.«134938_j48026324304270_1_alg».proof.Proof.KernelPay

noncomputable section

namespace Cert.KernelIdeal.Acc

open Cert.KernelIdeal Cert.KernelIdeal.Gen Idealize.ShloMosaic Idealize.ShloMosaic.TcCoe Idealize.SL.Sem
open Idealize.ShloMosaic.ValueIdx SpatialGather
open Cert.KernelIdeal.Pieces Cert.KernelIdeal.Pay

variable {F : FTy → Type} [FloatOps F]
variable (m : (ℓ : Loc nD τ sig) → Buf (Elt F) ℓ)

/-- The running accumulator after the point at position `n`. -/
def accAfter (c : Dev nD) (n : ℕ) (h : n < cfg0.N) : Vec F S150x512 .f32 := (outsAt0 m c n h).2.2.1

/-- The running column total after the point at position `n`. -/
def colAfter (c : Dev nD) (n : ℕ) (h : n < cfg0.N) : Vec F S150x1 .f32 := (outsAt0 m c n h).2.2.2

theorem lt64 {n : ℕ} (h : n < cfg0.N) : n < 64 := lt_of_lt_of_eq h (show cfg0.N = 64 from N_0)

/-- At a row's first point the accumulator is the payload over the zero reset. -/
theorem accAfter_first (c : Dev nD) (n : ℕ) (h : n < cfg0.N) (h0 : n % 32 = 0) :
    accAfter m c n h = k0_pay5 (iblk m c 0 ⟨n, h⟩) (iblk m c 1 ⟨n, h⟩) k0_pay1 := by
  have h1 : ¬n % 32 = 31 := by omega
  unfold accAfter
  rw [outsAt0_A m c ⟨n, h⟩ h0 h1]
  dsimp only
  rw [acc_A]

/-- At a row's first point the column total is the payload over the zero reset. -/
theorem colAfter_first (c : Dev nD) (n : ℕ) (h : n < cfg0.N) (h0 : n % 32 = 0) :
    colAfter m c n h = k0_pay4 (iblk m c 0 ⟨n, h⟩) k0_pay2 := by
  have h1 : ¬n % 32 = 31 := by omega
  unfold colAfter
  rw [outsAt0_A m c ⟨n, h⟩ h0 h1]
  dsimp only
  rw [col_A]

/-- At every other point the accumulator is the payload over what the point before left. -/
theorem accAfter_next (c : Dev nD) (n : ℕ) (h : n + 1 < cfg0.N) (h0 : ¬(n + 1) % 32 = 0) :
    accAfter m c (n + 1) h
      = k0_pay5 (iblk m c 0 ⟨n + 1, h⟩) (iblk m c 1 ⟨n + 1, h⟩) (accAfter m c n (Nat.lt_of_succ_lt h)) := by
  unfold accAfter
  by_cases h1 : (n + 1) % 32 = 31
  · rw [outsAt0_C m c ⟨n + 1, h⟩ h0 h1]
    dsimp only
    rw [acc_C]
    rfl
  · rw [outsAt0_B m c ⟨n + 1, h⟩ h0 h1]
    dsimp only
    rw [acc_B]
    rfl

/-- At every other point the column total is the payload over what the point before left. -/
theorem colAfter_next (c : Dev nD) (n : ℕ) (h : n + 1 < cfg0.N) (h0 : ¬(n + 1) % 32 = 0) :
    colAfter m c (n + 1) h
      = k0_pay4 (iblk m c 0 ⟨n + 1, h⟩) (colAfter m c n (Nat.lt_of_succ_lt h)) := by
  unfold colAfter
  by_cases h1 : (n + 1) % 32 = 31
  · rw [outsAt0_C m c ⟨n + 1, h⟩ h0 h1]
    dsimp only
    rw [col_C]
    rfl
  · rw [outsAt0_B m c ⟨n + 1, h⟩ h0 h1]
    dsimp only
    rw [col_B]
    rfl

/-- The last point of a row leaves the first output block at the copy of the finished accumulator. -/
theorem out2_last (c : Dev nD) (t : Fin cfg0.N) (h1 : t.val % 32 = 31) :
    (outsAt0 m c t.val t.isLt).1 = k0_pay6 (accAfter m c t.val t.isLt) := by
  have h0 : ¬t.val % 32 = 0 := by omega
  unfold accAfter
  rw [outsAt0_C m c t h0 h1]
  dsimp only
  rw [out2_C, acc_C]

/-- The last point of a row leaves the second output block at the copy of the finished column total. -/
theorem out3_last (c : Dev nD) (t : Fin cfg0.N) (h1 : t.val % 32 = 31) :
    (outsAt0 m c t.val t.isLt).2.1 = k0_pay7 (colAfter m c t.val t.isLt) := by
  have h0 : ¬t.val % 32 = 0 := by omega
  unfold colAfter
  rw [outsAt0_C m c t h0 h1]
  dsimp only
  rw [out3_C, col_C]

/-! ## On the extended reals: the folds are sums -/

section AtIdeal

variable (mI : (ℓ : Loc nD τ sig) → Buf (Elt Ideal) ℓ)

/-- One point's contribution to the accumulator at `(k, c)`: over the block's pixels, the probability of class `k`
    times the feature of channel `c`. -/
def accTerm (x : Vec Ideal S150x4096 .f32) (y : Vec Ideal S512x4096 .f32) (k : Fin 150) (c : Fin 512) : EReal :=
  ∑ l : Fin 4096, colProb negInf (fun k' : Fin 150 => x (ix2 k' l)) k * y (ix2 c l)

/-- One point's contribution to the column total at class `k`: the probabilities of `k` over the block's pixels. -/
def colTerm (x : Vec Ideal S150x4096 .f32) (k : Fin 150) : EReal :=
  ∑ l : Fin 4096, colProb negInf (fun k' : Fin 150 => x (ix2 k' l)) k

/-- The accumulator's addend of the point at position `n` (zero past the grid). -/
def accAdd (c : Dev nD) (n : ℕ) (i : S150x512.Idx) : EReal :=
  if h : n < cfg0.N then accTerm (iblk mI c 0 ⟨n, h⟩) (iblk mI c 1 ⟨n, h⟩) (i 0) (i 1) else 0

/-- The column total's addend of the point at position `n` (zero past the grid). -/
def colAdd (c : Dev nD) (n : ℕ) (i : S150x1.Idx) : EReal :=
  if h : n < cfg0.N then colTerm (iblk mI c 0 ⟨n, h⟩) (i 0) else 0

/-- The accumulator payload adds the point's addend to what it is given. -/
theorem pay5_add (c : Dev nD) (n : ℕ) (h : n < cfg0.N) (acc : Vec Ideal S150x512 .f32) (i : S150x512.Idx) :
    k0_pay5 (F := Ideal) (iblk mI c 0 ⟨n, h⟩) (iblk mI c 1 ⟨n, h⟩) acc i = acc i + accAdd mI c n i := by
  obtain ⟨k, c', rfl⟩ : ∃ (k : Fin 150) (c' : Fin 512), i = ix2 k c' := ⟨i 0, i 1, eq_ix2 i⟩
  refine (pay5_at (iblk mI c 0 ⟨n, h⟩) (iblk mI c 1 ⟨n, h⟩) acc k c').trans ?_
  unfold accAdd
  rw [dif_pos h]
  rfl

/-- The column-total payload adds the point's addend to what it is given. -/
theorem pay4_add (c : Dev nD) (n : ℕ) (h : n < cfg0.N) (col : Vec Ideal S150x1 .f32) (i : S150x1.Idx) :
    k0_pay4 (F := Ideal) (iblk mI c 0 ⟨n, h⟩) col i = col i + colAdd mI c n i := by
  obtain ⟨k, z, rfl⟩ : ∃ (k : Fin 150) (z : Fin 1), i = ix2 k z := ⟨i 0, i 1, eq_ix2 i⟩
  refine (pay4_at (iblk mI c 0 ⟨n, h⟩) col k z).trans ?_
  unfold colAdd
  rw [dif_pos h]
  rfl

/-- After the point at position `t` the accumulator is the sum of the addends of its row's points up to `t`. -/
theorem accAfter_sum (c : Dev nD) (t : ℕ) (ht : t < cfg0.N) (i : S150x512.Idx) :
    accAfter mI c t ht i = 0 + ∑ s ∈ Finset.range (t % 32 + 1), accAdd mI c (32 * (t / 32) + s) i := by
  have h' : 32 * (t / 32) + t % 32 < cfg0.N := by rw [Nat.div_add_mod]; exact ht
  rw [Pipeline.eq_accAt_of_mod (accAfter mI c) 32
    (fun n h => k0_pay5 (iblk mI c 0 ⟨n, h⟩) (iblk mI c 1 ⟨n, h⟩) (k0_pay1 (F := Ideal)))
    (fun n h acc => k0_pay5 (iblk mI c 0 ⟨n, h⟩) (iblk mI c 1 ⟨n, h⟩) acc)
    (fun n h h0 => accAfter_first mI c n h h0) (fun n h h0 => accAfter_next mI c n h h0) (by decide) t ht h']
  refine Pipeline.accAt_add_apply _ _ (fun _ => (0 : EReal)) (accAdd mI c) (32 * (t / 32)) 31 ?_ ?_ (t % 32) (by omega) h' i
  · intro h i
    rw [pay5_add, pay1_at]
  · intro n h acc i _ _
    exact pay5_add mI c n h acc i

/-- After the point at position `t` the column total is the sum of the addends of its row's points up to `t`. -/
theorem colAfter_sum (c : Dev nD) (t : ℕ) (ht : t < cfg0.N) (i : S150x1.Idx) :
    colAfter mI c t ht i = 0 + ∑ s ∈ Finset.range (t % 32 + 1), colAdd mI c (32 * (t / 32) + s) i := by
  have h' : 32 * (t / 32) + t % 32 < cfg0.N := by rw [Nat.div_add_mod]; exact ht
  rw [Pipeline.eq_accAt_of_mod (colAfter mI c) 32
    (fun n h => k0_pay4 (iblk mI c 0 ⟨n, h⟩) (k0_pay2 (F := Ideal)))
    (fun n h col => k0_pay4 (iblk mI c 0 ⟨n, h⟩) col)
    (fun n h h0 => colAfter_first mI c n h h0) (fun n h h0 => colAfter_next mI c n h h0) (by decide) t ht h']
  refine Pipeline.accAt_add_apply _ _ (fun _ => (0 : EReal)) (colAdd mI c) (32 * (t / 32)) 31 ?_ ?_ (t % 32) (by omega) h' i
  · intro h i
    rw [pay4_add, pay2_at]
  · intro n h col i _ _
    exact pay4_add mI c n h col i

end AtIdeal

end Cert.KernelIdeal.Acc

end
-- ==== Proof.KernelArrays.lean ====
/-
  From the grid's blocks to whole arrays, on the extended reals.

  The score block of the point at position `t` is columns `4096 t … 4096 t + 4095` of the 150 by 262144 score
  array, and likewise the feature block.  Only the last point of each of the two rows writes its output blocks
  back: block `o` of the first output array (2 by 150 by 512) then holds row `o`'s finished accumulator, block `o`
  of the second (2 by 150 by 1) row `o`'s finished column total; the two blocks of each array cover it.
-/
import proofs.«134938_j48026324304270_1_alg».proof.Proof.KernelAcc

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx SpatialGather
open Cert.KernelIdeal.Pay Cert.KernelIdeal.Acc

variable (mI : (ℓ : Loc nD τ sig) → Buf (Elt Ideal) ℓ)

/-! ## The printed index maps, decided once over the grid -/

/-- Both input windows sit at block `(0, t)`; both output windows at block `(t / 32, 0, 0)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-! ## The input blocks as columns of their arrays -/

/-- The score block of the point at position `t`, at `(k, l)`, is the score array at `(k, 4096 t + l)`. -/
theorem scoreBlock_at (c : Dev nD) (t : Fin cfg0.N) (k : Fin 150) (l : Fin 4096) (hb : 4096 * t.val + l.val < 262144) :
    (iblk mI c 0 t : Vec Ideal S150x4096 .f32) (ix2 k l)
      = (V mI c main_v1 : Vec Ideal S150x262144 .f32) (ix2 k ⟨4096 * t.val + l.val, hb⟩) := by
  obtain ⟨e0, e1, -⟩ := idx_facts t
  unfold iblk
  rw [View.read_apply]
  show V mI c main_v1 _ = V mI c main_v1 _
  congr 1
  funext a
  apply Fin.ext
  match a with
  | ⟨0, _⟩ => show win0_0.index t (0 : Fin 2) * 150 + 1 * k.val = k.val; rw [e0]; omega
  | ⟨1, _⟩ => show win0_0.index t (1 : Fin 2) * 4096 + 1 * l.val = 4096 * t.val + l.val; rw [e1]; omega

/-- The feature block of the point at position `t`, at `(c', l)`, is the feature array at `(c', 4096 t + l)`. -/
theorem featBlock_at (c : Dev nD) (t : Fin cfg0.N) (c' : Fin 512) (l : Fin 4096) (hb : 4096 * t.val + l.val < 262144) :
    (iblk mI c 1 t : Vec Ideal S512x4096 .f32) (ix2 c' l)
      = (V mI c main_v0 : Vec Ideal S512x262144 .f32) (ix2 c' ⟨4096 * t.val + l.val, hb⟩) := by
  obtain ⟨-, -, e0, e1, -⟩ := idx_facts t
  unfold iblk
  rw [View.read_apply]
  show V mI c main_v0 _ = V mI c main_v0 _
  congr 1
  funext a
  apply Fin.ext
  match a with
  | ⟨0, _⟩ => show win0_1.index t (0 : Fin 2) * 512 + 1 * c'.val = c'.val; rw [e0]; omega
  | ⟨1, _⟩ => show win0_1.index t (1 : Fin 2) * 4096 + 1 * l.val = 4096 * t.val + l.val; rw [e1]; omega

/-! ## The two output arrays -/

/-- The first output array after the run: at `(o, k, c')`, row `o`'s 32 accumulator addends summed. -/
def accArr (c : Dev nD) : Buf (Elt Ideal) ((c : Thread nD τ).loc main_v2_0) := fun i =>
  0 + ∑ s ∈ Finset.range 32, accAdd mI c (32 * (i 0).val + s) (ix2 (i 1 : Fin 150) (i 2 : Fin 512))

/-- The second output array after the run: at `(o, k, 0)`, row `o`'s 32 column-total addends summed. -/
def colArr (c : Dev nD) : Buf (Elt Ideal) ((c : Thread nD τ).loc main_v2_1) := fun i =>
  0 + ∑ s ∈ Finset.range 32, colAdd mI c (32 * (i 0).val + s) (ix2 (i 1 : Fin 150) (i 2 : Fin 1))

/-- An element of the first output's block at the point at position `t` sits in the array at row `t / 32`. -/
theorem emb_out2 (t : Fin cfg0.N) (u : Fin 1) (k : Fin 150) (c' : Fin 512) (ho : t.val / 32 < 2) :
    ((cfg0.win 2).blk t).view.emb (ix3 u k c') = (ix3 ⟨t.val / 32, ho⟩ k c' : S2x150x512.Idx) := by
  obtain ⟨-, -, -, -, e0, e1, e2, -⟩ := idx_facts t
  funext a
  apply Fin.ext
  match a with
  | ⟨0, _⟩ => show win0_2.index t (0 : Fin 3) * 1 + 1 * u.val = t.val / 32; rw [e0]; omega
  | ⟨1, _⟩ => show win0_2.index t (1 : Fin 3) * 150 + 1 * k.val = k.val; rw [e1]; omega
  | ⟨2, _⟩ => show win0_2.index t (2 : Fin 3) * 512 + 1 * c'.val = c'.val; rw [e2]; omega

/-- An element of the second output's block at the point at position `t` sits in the array at row `t / 32`. -/
theorem emb_out3 (t : Fin cfg0.N) (u : Fin 1) (k : Fin 150) (z : Fin 1) (ho : t.val / 32 < 2) :
    ((cfg0.win 3).blk t).view.emb (ix3 u k z) = (ix3 ⟨t.val / 32, ho⟩ k z : S2x150x1.Idx) := by
  obtain ⟨-, -, -, -, -, -, -, e0, e1, e2⟩ := idx_facts t
  funext a
  apply Fin.ext
  match a with
  | ⟨0, _⟩ => show win0_3.index t (0 : Fin 3) * 1 + 1 * u.val = t.val / 32; rw [e0]; omega
  | ⟨1, _⟩ => show win0_3.index t (1 : Fin 3) * 150 + 1 * k.val = k.val; rw [e1]; omega
  | ⟨2, _⟩ => show win0_3.index t (2 : Fin 3) * 1 + 1 * z.val = z.val; rw [e2]; omega

/-- What a row's last point writes back into the first output array is that row's block of `accArr`. -/
theorem flushed2_eq (c : Dev nD) (t : Fin cfg0.N) (hf : (cfg0.win 2).flush t = true) :
    (dats mI 0 c).flushed 2 t = ((cfg0.win 2).blk t).view.read (Elt Ideal) (accArr mI c) := by
  have h31 : t.val % 32 = 31 := (flush0_2 t).mp hf
  have ho : t.val / 32 < 2 := by have := lt64 t.isLt; omega
  show (cfg0.win 2).cut (grid0.coords t) ((dats mI 0 c).after 2 t) = _
  rw [after0_2, out2_last mI c t h31]
  funext j
  obtain ⟨u, k, c', rfl⟩ : ∃ (u : Fin 1) (k : Fin 150) (c' : Fin 512), j = ix3 u k c' := ⟨j 0, j 1, j 2, eq_ix3 j⟩
  show k0_pay6 (accAfter mI c t.val t.isLt) (ix3 u k c') = accArr mI c (((cfg0.win 2).blk t).view.emb (ix3 u k c'))
  rw [pay6_at, accAfter_sum, emb_out2 t u k c' ho, h31]
  rfl

/-- What a row's last point writes back into the second output array is that row's block of `colArr`. -/
theorem flushed3_eq (c : Dev nD) (t : Fin cfg0.N) (hf : (cfg0.win 3).flush t = true) :
    (dats mI 0 c).flushed 3 t = ((cfg0.win 3).blk t).view.read (Elt Ideal) (colArr mI c) := by
  have h31 : t.val % 32 = 31 := (flush0_3 t).mp hf
  have ho : t.val / 32 < 2 := by have := lt64 t.isLt; omega
  show (cfg0.win 3).cut (grid0.coords t) ((dats mI 0 c).after 3 t) = _
  rw [after0_3, out3_last mI c t h31]
  funext j
  obtain ⟨u, k, z, rfl⟩ : ∃ (u : Fin 1) (k : Fin 150) (z : Fin 1), j = ix3 u k z := ⟨j 0, j 1, j 2, eq_ix3 j⟩
  show k0_pay7 (colAfter mI c t.val t.isLt) (ix3 u k z) = colArr mI c (((cfg0.win 3).blk t).view.emb (ix3 u k z))
  rw [pay7_at, colAfter_sum, emb_out3 t u k z ho, h31]
  rfl

/-- An index of the first output array is in the block of the point at position `t` iff each coordinate is in the
    block's range. -/
theorem mem_blk2 (t : Fin cfg0.N) (i : S2x150x512.Idx) :
    i ∈ ((cfg0.win 2).blk t).view.set ↔ ∀ a : Fin 3, win0_2.index t a * S1x150x512.size a ≤ (i a).val ∧ (i a).val < win0_2.index t a * S1x150x512.size a + S1x150x512.size a := by
  show i ∈ ((View.whole main_v2_0).slice (win0_2.rect t)).set ↔ _
  rw [View.set_slice_whole, Rect.mem_set_unit]
  exact Iff.rfl

theorem mem_blk3 (t : Fin cfg0.N) (i : S2x150x1.Idx) :
    i ∈ ((cfg0.win 3).blk t).view.set ↔ ∀ a : Fin 3, win0_3.index t a * S1x150x1.size a ≤ (i a).val ∧ (i a).val < win0_3.index t a * S1x150x1.size a + S1x150x1.size a := by
  show i ∈ ((View.whole main_v2_1).slice (win0_3.rect t)).set ↔ _
  rw [View.set_slice_whole, Rect.mem_set_unit]
  exact Iff.rfl

/-- Row `o` of the first output array is covered by the block the last point of row `o` writes back. -/
theorem cover2 (i : S2x150x512.Idx) :
    ∃ t : Fin cfg0.N, (cfg0.win 2).flush t = true ∧ i ∈ ((cfg0.win 2).blk t).view.set := by
  have hi0 : (i 0).val < 2 := (i 0).isLt
  have hi1 : (i 1).val < 150 := (i 1).isLt
  have hi2 : (i 2).val < 512 := (i 2).isLt
  have hN : cfg0.N = 64 := N_0
  refine ⟨⟨32 * (i 0).val + 31, by omega⟩, (flush0_2 _).mpr (by dsimp only; omega), ?_⟩
  obtain ⟨-, -, -, -, e0, e1, e2, -⟩ := idx_facts ⟨32 * (i 0).val + 31, by omega⟩
  rw [mem_blk2]
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 150 ≤ (i 1).val ∧ (i 1).val < win0_2.index _ (1 : Fin 3) * 150 + 150; rw [e1]; omega
  | ⟨2, _⟩ => show win0_2.index _ (2 : Fin 3) * 512 ≤ (i 2).val ∧ (i 2).val < win0_2.index _ (2 : Fin 3) * 512 + 512; rw [e2]; omega

/-- Row `o` of the second output array is covered by the block the last point of row `o` writes back. -/
theorem cover3 (i : S2x150x1.Idx) :
    ∃ t : Fin cfg0.N, (cfg0.win 3).flush t = true ∧ i ∈ ((cfg0.win 3).blk t).view.set := by
  have hi0 : (i 0).val < 2 := (i 0).isLt
  have hi1 : (i 1).val < 150 := (i 1).isLt
  have hi2 : (i 2).val < 1 := (i 2).isLt
  have hN : cfg0.N = 64 := N_0
  refine ⟨⟨32 * (i 0).val + 31, by omega⟩, (flush0_3 _).mpr (by dsimp only; omega), ?_⟩
  obtain ⟨-, -, -, -, -, -, -, e0, e1, e2⟩ := idx_facts ⟨32 * (i 0).val + 31, by omega⟩
  rw [mem_blk3]
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 150 ≤ (i 1).val ∧ (i 1).val < win0_3.index _ (1 : Fin 3) * 150 + 150; rw [e1]; omega
  | ⟨2, _⟩ => show win0_3.index _ (2 : Fin 3) * 1 ≤ (i 2).val ∧ (i 2).val < win0_3.index _ (2 : Fin 3) * 1 + 1; rw [e2]; omega

/-- The first output array after the run. -/
theorem final2 (c : Dev nD) : (dats mI 0 c).arrAt 2 cfg0.N = accArr mI c :=
  (dats mI 0 c).arrAt_eq_of_cover 2 (accArr mI c) (flushed2_eq mI c) cover2

/-- The second output array after the run. -/
theorem final3 (c : Dev nD) : (dats mI 0 c).arrAt 3 cfg0.N = colArr mI c :=
  (dats mI 0 c).arrAt_eq_of_cover 3 (colArr mI c) (flushed3_eq mI c) cover3

end Cert.KernelIdeal.Arrays

end
-- ==== Proof.KernelResult.lean ====
/-
  The kernel program's result, on the extended reals.

  Before the region the host reshapes both arguments into 2-d arrays; after it, the host adds the two rows'
  accumulators and the two rows' column totals, clamps the totals from below and divides.  So the result at
  `(k, c)` is the sum of the two rows' accumulators there, divided by the clamped sum of the two rows' column
  totals at `k`.
-/
import proofs.«134938_j48026324304270_1_alg».proof.Proof.KernelArrays
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx SpatialGather
open Cert.KernelIdeal.Pay Cert.KernelIdeal.Acc Cert.KernelIdeal.Arrays

variable (mI : (ℓ : Loc nD τ sig) → Buf (Elt Ideal) ℓ)

/-! ## The arrays the region finds -/

/-- The score array the region finds is the second argument reshaped. -/
theorem V_scores (c : Dev nD) :
    (V mI c main_v1 : Vec Ideal S150x262144 .f32)
      = shapeCast S150x262144 (mI ((c : Thread nD τ).loc main_arg1)) shapeCasts_S150x512x512_S150x262144 := by
  show StableHlo.after hostOps0 (fun b => mI (c, b)) (Proc.devRef .tc main_v1) = _
  after_results
  rfl

/-- The feature array the region finds is the first argument reshaped. -/
theorem V_feats (c : Dev nD) :
    (V mI c main_v0 : Vec Ideal S512x262144 .f32)
      = shapeCast S512x262144 (mI ((c : Thread nD τ).loc main_arg0)) shapeCasts_S512x512x512_S512x262144 := by
  show StableHlo.after hostOps0 (fun b => mI (c, b)) (Proc.devRef .tc main_v0) = _
  after_results
  rfl

/-! ## The host lines after the region -/

/-- The clamp: the float nearest to one millionth. -/
abbrev eps : EReal := Ideal.ofBits .f32 0x358637BD#32

/-- The two rows of the first output array added. -/
def rowsAdded (A : FVec Ideal S2x150x512 .f32) : FVec Ideal S150x512 .f32 :=
  Host.reduceAdd (F := Ideal) A (constant (F := Ideal) S_ .f32 0x00000000#32) reducesTo_S2x150x512_S150x512_d0 h_S_

/-- The two rows of the second output array added, then clamped from below. -/
def totalsClamped (T : FVec Ideal S2x150x1 .f32) : FVec Ideal S150x1 .f32 :=
  maximumf (F := Ideal)
    (Host.reduceAdd (F := Ideal) T (constant (F := Ideal) S_ .f32 0x00000000#32) reducesTo_S2x150x1_S150x1_d0 h_S_)
    (broadcastInDim S150x1 ![] bcast_S_S150x1 (constant (F := Ideal) S_ .f32 0x358637BD#32))

/-- The host lines after the region, as one function of the two output arrays. -/
def tail (A : FVec Ideal S2x150x512 .f32) (T : FVec Ideal S2x150x1 .f32) : FVec Ideal S150x512 .f32 :=
  Host.divf (F := Ideal) (rowsAdded A) (broadcastInDim S150x512 ![0, 1] bcast_S150x1_S150x512_0_1 (totalsClamped T))

/-- What the program's result buffer holds after the run: the tail of the two final output arrays. -/
theorem result_eq (c : Dev nD) :
    Pipeline.afterTail₀ cfgs (dats mI) 0 (V0 mI) [hostOps1] c main_v8 = tail (accArr mI c) (colArr mI c) := by
  unfold Pipeline.afterTail₀
  show StableHlo.after hostOps1 _ (Proc.devRef .tc main_v8) = _
  after_results
  have e2 : Pipeline.withArrays (cfgs 0).spec c (V0 mI c) (fun w => (dats mI 0 c).arrAt w (cfgs 0).N)
      (Proc.devRef .tc main_v2_0) = accArr mI c :=
    (Pipeline.withArrays_arr spec0 launch0.win.arr_inj c _ _ 2).trans (final2 mI c)
  have e3 : Pipeline.withArrays (cfgs 0).spec c (V0 mI c) (fun w => (dats mI 0 c).arrAt w (cfgs 0).N)
      (Proc.devRef .tc main_v2_1) = colArr mI c :=
    (Pipeline.withArrays_arr spec0 launch0.win.arr_inj c _ _ 3).trans (final3 mI c)
  rw [e2, e3]
  rfl

/-! ## The tail at an index -/

theorem lift_row2 (k : Fin 150) (c' : Fin 512) (o : Fin 2) (h : S2x150x512.Reduces [0] S150x512) :
    h.lift (ix2 k c') o = (ix3 o k c' : S2x150x512.Idx) :=
  funext fun a => Fin.ext (by match a with | ⟨0, _⟩ => rfl | ⟨1, _⟩ => rfl | ⟨2, _⟩ => rfl)

theorem lift_row3 (k : Fin 150) (z : Fin 1) (o : Fin 2) (h : S2x150x1.Reduces [0] S150x1) :
    h.lift (ix2 k z) o = (ix3 o k z : S2x150x1.Idx) :=
  funext fun a => Fin.ext (by match a with | ⟨0, _⟩ => rfl | ⟨1, _⟩ => rfl | ⟨2, _⟩ => rfl)

/-- The rows added, at `(k, c')`. -/
theorem rowsAdded_at (A : FVec Ideal S2x150x512 .f32) (k : Fin 150) (c' : Fin 512) :
    rowsAdded A (ix2 k c') = 0 + ∑ o : Fin 2, A (ix3 o k c') := by
  unfold rowsAdded
  simp only [Host.reduceAdd, Ideal.hostReduceAdd_def]
  rw [Ideal.hostReduceAdd_single reducesTo_S2x150x512_S150x512_d0 (by decide)]
  show Ideal.ofBits .f32 0x00000000#32 + _ = _
  rw [Ideal.ofBits_zero_f32]
  exact congrArg (0 + ·) (Finset.sum_congr rfl fun o _ => congrArg A (lift_row2 k c' o _))

/-- The totals clamped, at `(k, 0)`. -/
theorem totalsClamped_at (T : FVec Ideal S2x150x1 .f32) (k : Fin 150) (z : Fin 1) :
    totalsClamped T (ix2 k z) = max (0 + ∑ o : Fin 2, T (ix3 o k z)) eps := by
  unfold totalsClamped
  refine (maximumf_apply _ _ _).trans ?_
  rw [broadcastInDim_apply _ bcast_S_S150x1 _ (ix2 k z) ix0 (fun a => a.elim0)]
  simp only [Host.reduceAdd, Ideal.hostReduceAdd_def]
  rw [Ideal.hostReduceAdd_single reducesTo_S2x150x1_S150x1_d0 (by decide)]
  show max (Ideal.ofBits .f32 0x00000000#32 + _) eps = _
  rw [Ideal.ofBits_zero_f32]
  exact congrArg (fun s => max (0 + s) eps) (Finset.sum_congr rfl fun o _ => congrArg T (lift_row3 k z o _))

/-- The tail at `(k, c')`: the two rows' accumulators added, over the clamped sum of the two rows' column totals. -/
theorem tail_at (A : FVec Ideal S2x150x512 .f32) (T : FVec Ideal S2x150x1 .f32) (k : Fin 150) (c' : Fin 512) :
    tail A T (ix2 k c')
      = Ideal.div (0 + ∑ o : Fin 2, A (ix3 o k c')) (max (0 + ∑ o : Fin 2, T (ix3 o k (0 : Fin 1))) eps) := by
  unfold tail
  exact congrArg₂ Ideal.div (rowsAdded_at A k c')
    ((broadcastInDim_apply _ bcast_S150x1_S150x512_0_1 (totalsClamped T) (ix2 k c') (ix2 k (0 : Fin 1)) (fun a => by
      match a with
      | ⟨0, _⟩ => show k.val = if (150 : Nat) = 1 then 0 else k.val; rw [if_neg (by decide)]
      | ⟨1, _⟩ => show 0 = if (1 : Nat) = 1 then 0 else c'.val; rw [if_pos rfl])).trans (totalsClamped_at T k 0))

end Cert.KernelIdeal.Result

end
-- ==== Proof.KernelBridge.lean ====
/-
  The kernel program's result as the "divide the finished sum once" form of the shared mathematics.

  A point's contribution is a sum over its 4096 pixels; a row's total is the sum over its 32 points; the host adds
  the two rows.  Pixel `n` of the 262144 is pixel `l` of the point at position `t` exactly when
  `n = 4096 t + l`, and the point at position `t` is point `s` of row `o` exactly when `t = 32 o + s`;
  so the three nested sums visit every pixel once, and are the sum over all pixels.  A class's probability at a
  pixel depends only on that pixel's column of scores, so the probabilities the blocks see are the probabilities
  of the whole array.
-/
import proofs.«134938_j48026324304270_1_alg».proof.Proof.KernelResult

noncomputable section

namespace Cert.KernelIdeal.Bridge

open Cert.KernelIdeal Cert.KernelIdeal.Gen Idealize.ShloMosaic Idealize.ShloMosaic.TcCoe Idealize.SL.Sem
open Idealize.ShloMosaic.ValueIdx SpatialGather
open Cert.KernelIdeal.Pay Cert.KernelIdeal.Acc Cert.KernelIdeal.Arrays Cert.KernelIdeal.Result

variable (mI : (ℓ : Loc nD τ sig) → Buf (Elt Ideal) ℓ)

/-- The score array the region finds, by class and pixel. -/
def sc (c : Dev nD) (k : Fin 150) (n : Fin 262144) : EReal :=
  (V mI c main_v1 : Vec Ideal S150x262144 .f32) (ix2 k n)

/-- The feature array the region finds, by channel and pixel. -/
def ft (c : Dev nD) (ch : Fin 512) (n : Fin 262144) : EReal :=
  (V mI c main_v0 : Vec Ideal S512x262144 .f32) (ix2 ch n)

/-- The accumulator addend of the point at position `n`, over the whole arrays extended by zero. -/
theorem accAdd_eq (c : Dev nD) (n : ℕ) (hn : n < cfg0.N) (k : Fin 150) (c' : Fin 512) :
    accAdd mI c n (ix2 k c')
      = ∑ l : Fin 4096, (fun j : ℕ => colProb negInf (fun k' : Fin 150 => ext0 (sc mI c k') j) k * ext0 (ft mI c c') j)
          (4096 * n + l.val) := by
  have h64 : n < 64 := lt64 hn
  unfold accAdd
  rw [dif_pos hn]
  show accTerm (iblk mI c 0 ⟨n, hn⟩) (iblk mI c 1 ⟨n, hn⟩) k c' = _
  unfold accTerm
  refine Finset.sum_congr rfl fun l _ => ?_
  have hl : l.val < 4096 := l.isLt
  have hb : 4096 * n + l.val < 262144 := by omega
  have e1 : (fun k' : Fin 150 => (iblk mI c 0 ⟨n, hn⟩ : Vec Ideal S150x4096 .f32) (ix2 k' l))
      = fun k' : Fin 150 => ext0 (sc mI c k') (4096 * n + l.val) :=
    funext fun k' => (scoreBlock_at mI c ⟨n, hn⟩ k' l hb).trans (ext0_of_lt (sc mI c k') _ hb).symm
  have e2 : (iblk mI c 1 ⟨n, hn⟩ : Vec Ideal S512x4096 .f32) (ix2 c' l) = ext0 (ft mI c c') (4096 * n + l.val) :=
    (featBlock_at mI c ⟨n, hn⟩ c' l hb).trans (ext0_of_lt (ft mI c c') _ hb).symm
  show colProb negInf (fun k' : Fin 150 => (iblk mI c 0 ⟨n, hn⟩ : Vec Ideal S150x4096 .f32) (ix2 k' l)) k
      * (iblk mI c 1 ⟨n, hn⟩ : Vec Ideal S512x4096 .f32) (ix2 c' l) = _
  rw [e1, e2]

/-- The column-total addend of the point at position `n`, over the whole score array extended by zero. -/
theorem colAdd_eq (c : Dev nD) (n : ℕ) (hn : n < cfg0.N) (k : Fin 150) (z : Fin 1) :
    colAdd mI c n (ix2 k z)
      = ∑ l : Fin 4096, (fun j : ℕ => colProb negInf (fun k' : Fin 150 => ext0 (sc mI c k') j) k) (4096 * n + l.val) := by
  have h64 : n < 64 := lt64 hn
  unfold colAdd
  rw [dif_pos hn]
  show colTerm (iblk mI c 0 ⟨n, hn⟩) k = _
  unfold colTerm
  refine Finset.sum_congr rfl fun l _ => ?_
  have hl : l.val < 4096 := l.isLt
  have hb : 4096 * n + l.val < 262144 := by omega
  have e1 : (fun k' : Fin 150 => (iblk mI c 0 ⟨n, hn⟩ : Vec Ideal S150x4096 .f32) (ix2 k' l))
      = fun k' : Fin 150 => ext0 (sc mI c k') (4096 * n + l.val) :=
    funext fun k' => (scoreBlock_at mI c ⟨n, hn⟩ k' l hb).trans (ext0_of_lt (sc mI c k') _ hb).symm
  show colProb negInf (fun k' : Fin 150 => (iblk mI c 0 ⟨n, hn⟩ : Vec Ideal S150x4096 .f32) (ix2 k' l)) k = _
  rw [e1]

/-- The two rows' accumulators added are the probability-weighted sum of the features over all pixels. -/
theorem rows_acc (c : Dev nD) (k : Fin 150) (c' : Fin 512) (A : FVec Ideal S2x150x512 .f32) (hA : A = accArr mI c) :
    0 + ∑ o : Fin 2, A (ix3 o k c') = wsum negInf (sc mI c) (ft mI c) k c' := by
  subst hA
  rw [zero_add]
  unfold wsum
  have hR : ∀ n : Fin 262144, prob negInf (sc mI c) k n * ft mI c c' n
      = (fun j : ℕ => colProb negInf (fun k' : Fin 150 => ext0 (sc mI c k') j) k * ext0 (ft mI c c') j) n.val := fun n => by
    show colProb negInf (fun k' : Fin 150 => sc mI c k' n) k * ft mI c c' n
      = colProb negInf (fun k' : Fin 150 => ext0 (sc mI c k') n.val) k * ext0 (ft mI c c') n.val
    simp only [ext0_val]
  rw [Finset.sum_congr rfl (fun n _ => hR n), sum_grid 262144 2 32 4096 (by norm_num)
    (fun j : ℕ => colProb negInf (fun k' : Fin 150 => ext0 (sc mI c k') j) k * ext0 (ft mI c c') j)]
  refine Finset.sum_congr rfl fun o _ => ?_
  show 0 + ∑ s ∈ Finset.range 32, accAdd mI c (32 * o.val + s) (ix2 k c') = _
  rw [zero_add]
  refine Finset.sum_congr rfl fun s hs => ?_
  have hs' : s < 32 := Finset.mem_range.mp hs
  have ho : o.val < 2 := o.isLt
  exact accAdd_eq mI c (32 * o.val + s) (by rw [show cfg0.N = 64 from N_0]; omega) k c'

/-- The two rows' column totals added are the class's probabilities summed over all pixels. -/
theorem rows_col (c : Dev nD) (k : Fin 150) (T : FVec Ideal S2x150x1 .f32) (hT : T = colArr mI c) :
    0 + ∑ o : Fin 2, T (ix3 o k (0 : Fin 1)) = colsum negInf (sc mI c) k := by
  subst hT
  rw [zero_add]
  unfold colsum
  have hR : ∀ n : Fin 262144, prob negInf (sc mI c) k n
      = (fun j : ℕ => colProb negInf (fun k' : Fin 150 => ext0 (sc mI c k') j) k) n.val := fun n => by
    show colProb negInf (fun k' : Fin 150 => sc mI c k' n) k
      = colProb negInf (fun k' : Fin 150 => ext0 (sc mI c k') n.val) k
    simp only [ext0_val]
  rw [Finset.sum_congr rfl (fun n _ => hR n), sum_grid 262144 2 32 4096 (by norm_num)
    (fun j : ℕ => colProb negInf (fun k' : Fin 150 => ext0 (sc mI c k') j) k)]
  refine Finset.sum_congr rfl fun o _ => ?_
  show 0 + ∑ s ∈ Finset.range 32, colAdd mI c (32 * o.val + s) (ix2 k (0 : Fin 1)) = _
  rw [zero_add]
  refine Finset.sum_congr rfl fun s hs => ?_
  have hs' : s < 32 := Finset.mem_range.mp hs
  have ho : o.val < 2 := o.isLt
  exact colAdd_eq mI c (32 * o.val + s) (by rw [show cfg0.N = 64 from N_0]; omega) k 0

/-- The kernel program's result at `(k, c')`. -/
theorem kernel_at (c : Dev nD) (k : Fin 150) (c' : Fin 512) :
    tail (accArr mI c) (colArr mI c) (ix2 k c') = ctxKernel negInf eps (sc mI c) (ft mI c) k c' := by
  refine (tail_at _ _ k c').trans ?_
  unfold ctxKernel
  exact congrArg₂ Ideal.div (rows_acc mI c k c' _ rfl)
    (congrArg (fun s => max s eps) (rows_col mI c k _ rfl))

/-! ## The run, read -/

/-- Every weakly fair execution of the kernel program ends with the result buffer at the tail of the two final
    output arrays and both arguments unchanged: the generated frame run, re-posted. -/
theorem run (ρ : Dev nD → PrngReg) :
    θ_run defs (onTc (τ := τ) (main (F := Ideal))) ⟨mI, fun _ => 0, ρ⟩ fun r => ∀ c : Dev nD,
      r.2.mem ((c.tc : Thread nD τ).loc main_v8) = tail (accArr mI c) (colArr mI c)
      ∧ r.2.mem ((c.tc : Thread nD τ).loc main_arg0) = mI ((c.tc : Thread nD τ).loc main_arg0)
      ∧ r.2.mem ((c.tc : Thread nD τ).loc main_arg1) = mI ((c.tc : Thread nD τ).loc main_arg1) :=
  (θ_run defs _ _).mono (fun _ h c =>
    ⟨((h c).2 main_v8 (Pipeline.mem_restRefs_of main_v8 (by decide) (by decide))).trans (result_eq mI c),
      ((h c).2 main_arg0 (Pipeline.mem_restRefs_of main_arg0 (by decide) (by decide))).trans (W_main_arg0 mI (dats mI) c),
      ((h c).2 main_arg1 (Pipeline.mem_restRefs_of main_arg1 (by decide) (by decide))).trans (W_main_arg1 mI (dats mI) c)⟩)
    (run_main mI ρ)

end Cert.KernelIdeal.Bridge

end
-- ==== Proof.RefRead.lean ====
/-
  The reference program's result, on the extended reals.

  The reference transposes the reshaped scores to pixel by class, takes every pixel's softmax over the classes,
  totals each class's probabilities over all pixels, clamps the totals from below, divides every probability by
  its class's clamped total, and contracts the weights with the transposed features over the pixels.  Each stage
  is read at explicit coordinates; the last lemma states the result at `(k, c)` as the "divide every weight,
  then sum" form of the shared mathematics.
-/
import proofs.«134938_j48026324304270_1_alg».proof.Proof.Gen.ReferenceIdeal.Read
import proofs.«134938_j48026324304270_1_alg».proof.Proof.Softmax
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx SpatialGather

variable (x0 : FVec Ideal S512x512x512 .f32) (x1 : FVec Ideal S150x512x512 .f32)

/-- The value the class maximum is folded from: the pattern of negative infinity. -/
abbrev negInf : EReal := Ideal.ofBits .f32 0xFF800000#32

/-- The clamp: the float nearest to one millionth. -/
abbrev eps : EReal := Ideal.ofBits .f32 0x358637BD#32

/-- The reshaped scores, by class and pixel. -/
def scores (k : Fin 150) (n : Fin 262144) : EReal := val_main_v2 (F := Ideal) x1 (ix2 k n)

/-- The reshaped features, by channel and pixel. -/
def feats (c : Fin 512) (n : Fin 262144) : EReal := val_main_v0 (F := Ideal) x0 (ix2 c n)

/-- The transposed scores at `(n, k)`. -/
theorem v3_at (n : Fin 262144) (k : Fin 150) : val_main_v3 (F := Ideal) x1 (ix2 n k) = scores x1 k n := by
  have e : idx_main_v3 (ix2 n k) = (ix2 k n : S150x262144.Idx) :=
    funext fun a => Fin.ext (by match a with | ⟨0, _⟩ => rfl | ⟨1, _⟩ => rfl)
  rw [val_main_v3_apply, e]
  rfl

/-- The transposed features at `(n, c)`. -/
theorem v1_at (n : Fin 262144) (c : Fin 512) : val_main_v1 (F := Ideal) x0 (ix2 n c) = feats x0 c n := by
  have e : idx_main_v1 (ix2 n c) = (ix2 c n : S512x262144.Idx) :=
    funext fun a => Fin.ext (by match a with | ⟨0, _⟩ => rfl | ⟨1, _⟩ => rfl)
  rw [val_main_v1_apply, e]
  rfl

theorem lift_class (n : Fin 262144) (k : Fin 150) (h : S262144x150.Reduces [1] S262144) :
    h.lift (ix1 n) k = (ix2 n k : S262144x150.Idx) :=
  funext fun a => Fin.ext (by match a with | ⟨0, _⟩ => rfl | ⟨1, _⟩ => rfl)

/-- The maximum over the classes at pixel `n`. -/
theorem v4_at (n : Fin 262144) :
    val_main_v4 (F := Ideal) x1 (ix1 n) = colMax negInf (fun k : Fin 150 => scores x1 k n) := by
  unfold val_main_v4
  rw [Host.reduce_eq_fold_single FloatOps.maximumf _ _ reducesTo_S262144x150_S262144_d1 (by decide) h_S_ (ix1 n)]
  unfold colMax
  exact congrArg (fun f => (Finset.univ : Finset (Fin 150)).fold max negInf f)
    (funext fun k => (congrArg (val_main_v3 (F := Ideal) x1) (lift_class n k _)).trans (v3_at x1 n k))

/-- Taking the maximum with negative infinity once more changes nothing. -/
theorem v6_at (n : Fin 262144) :
    val_main_v6 (F := Ideal) x1 (ix1 n) = colMax negInf (fun k : Fin 150 => scores x1 k n) := by
  rw [val_main_v6_apply]
  show max negInf (val_main_v4 (F := Ideal) x1 (ix1 n)) = _
  rw [v4_at, max_colMax]

/-- The maximum repeated over the classes. -/
theorem v8_at (n : Fin 262144) (k : Fin 150) :
    val_main_v8 (F := Ideal) x1 (ix2 n k) = colMax negInf (fun k' : Fin 150 => scores x1 k' n) := by
  have e : idx_main_v7 (idx_main_v8 (ix2 n k)) = (ix1 n : S262144.Idx) :=
    funext fun a => Fin.ext (by match a with | ⟨0, _⟩ => rfl)
  rw [val_main_v8_apply, val_main_v7_apply, e, v6_at]

/-- The shifted exponential at `(n, k)`. -/
theorem v10_at (n : Fin 262144) (k : Fin 150) :
    val_main_v10 (F := Ideal) x1 (ix2 n k) = colExp negInf (fun k' : Fin 150 => scores x1 k' n) k := by
  rw [val_main_v10_apply, val_main_v9_apply, v3_at, v8_at]
  rfl

/-- The normalizer at pixel `n`. -/
theorem v11_at (n : Fin 262144) :
    val_main_v11 (F := Ideal) x1 (ix1 n) = ∑ k : Fin 150, colExp negInf (fun k' : Fin 150 => scores x1 k' n) k := by
  rw [val_main_v11_apply]
  show Ideal.ofBits .f32 0x00000000#32 + _ = _
  rw [Ideal.ofBits_zero_f32, zero_add]
  refine Finset.sum_congr rfl fun k _ => ?_
  have e : idx_main_v11 (ix1 n) k = (ix2 n k : S262144x150.Idx) :=
    funext fun a => Fin.ext (by match a with | ⟨0, _⟩ => rfl | ⟨1, _⟩ => rfl)
  rw [e, v10_at]

/-- The normalizer repeated over the classes. -/
theorem v13_at (n : Fin 262144) (k : Fin 150) :
    val_main_v13 (F := Ideal) x1 (ix2 n k) = ∑ k' : Fin 150, colExp negInf (fun k'' : Fin 150 => scores x1 k'' n) k' := by
  have e : idx_main_v12 (idx_main_v13 (ix2 n k)) = (ix1 n : S262144.Idx) :=
    funext fun a => Fin.ext (by match a with | ⟨0, _⟩ => rfl)
  rw [val_main_v13_apply, val_main_v12_apply, e, v11_at]

/-- The probability of class `k` at pixel `n`. -/
theorem v14_at (n : Fin 262144) (k : Fin 150) :
    val_main_v14 (F := Ideal) x1 (ix2 n k) = prob negInf (scores x1) k n := by
  rw [val_main_v14_apply, v10_at, v13_at]
  rfl

/-- The column total of class `k`. -/
theorem v15_at (k : Fin 150) : val_main_v15 (F := Ideal) x1 (ix1 k) = colsum negInf (scores x1) k := by
  rw [val_main_v15_apply]
  show Ideal.ofBits .f32 0x00000000#32 + _ = _
  rw [Ideal.ofBits_zero_f32, zero_add]
  refine Finset.sum_congr rfl fun n _ => ?_
  have e : idx_main_v15 (ix1 k) n = (ix2 n k : S262144x150.Idx) :=
    funext fun a => Fin.ext (by match a with | ⟨0, _⟩ => rfl | ⟨1, _⟩ => rfl)
  rw [e, v14_at]

/-- The clamped column total of class `k`. -/
theorem v17_at (u : Fin 1) (k : Fin 150) :
    val_main_v17 (F := Ideal) x1 (ix2 u k) = max eps (colsum negInf (scores x1) k) := by
  have e : idx_main_v16 (ix2 u k) = (ix1 k : S150.Idx) :=
    funext fun a => Fin.ext (by match a with | ⟨0, _⟩ => rfl)
  rw [val_main_v17_apply, val_main_call0_v1_apply, val_main_v16_apply, e, v15_at]
  rfl

/-- The weight of pixel `n` for class `k`. -/
theorem v19_at (n : Fin 262144) (k : Fin 150) :
    val_main_v19 (F := Ideal) x1 (ix2 n k)
      = Ideal.div (prob negInf (scores x1) k n) (max eps (colsum negInf (scores x1) k)) := by
  have e : idx_main_v18 (ix2 n k) = (ix2 (0 : Fin 1) k : S1x150.Idx) :=
    funext fun a => Fin.ext (by match a with | ⟨0, _⟩ => rfl | ⟨1, _⟩ => rfl)
  rw [val_main_v19_apply, v14_at, val_main_v18_apply, e, v17_at]
  rfl

/-- The reference's result at `(k, c)`: every weight divided, then summed against the features. -/
theorem result_at (k : Fin 150) (c : Fin 512) :
    val_main_v20 (F := Ideal) x0 x1 (ix2 k c) = ctxRef negInf eps (scores x1) (feats x0) k c := by
  rw [val_main_v20_apply]
  unfold ctxRef
  refine Finset.sum_congr rfl fun n _ => ?_
  have el : lidx_main_v20 (ix2 k c) n = (ix2 n k : S262144x150.Idx) :=
    funext fun a => Fin.ext (by match a with | ⟨0, _⟩ => rfl | ⟨1, _⟩ => rfl)
  have er : ridx_main_v20 (ix2 k c) n = (ix2 n c : S262144x512.Idx) :=
    funext fun a => Fin.ext (by match a with | ⟨0, _⟩ => rfl | ⟨1, _⟩ => rfl)
  rw [el, er, v19_at, v1_at]

end Cert.ReferenceIdeal.RefValue

end
-- ==== Proof.Finite.lean ====
/-
  The precondition read back: when the predicate "every entry of both arguments has absolute value
  below +infinity" evaluates to all ones, every entry of both argument arrays is a real number
  (neither infinity), on the extended reals.
-/
import proofs.«134938_j48026324304270_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace SpatialGather

open Idealize.ShloMosaic

namespace Finite

/-- The rank-0 shape has exactly one index: an index is a function out of the empty type of axes,
    and any two such functions agree. -/
theorem scalarIdx_subsingleton : Subsingleton Cert.Pre_finite_inputs.S_.Idx :=
  ⟨fun _ _ => funext fun d => d.elim0⟩

/-- The single-precision pattern 0x7F800000 (sign 0, exponent all ones, significand 0) denotes
    +infinity on the extended reals. -/
theorem ofBits_posInf : Ideal.ofBits .f32 0x7F800000#32 = (⊤ : EReal) := by
  simp [Ideal.ofBits, Ideal.ieee]

/-- An extended real a whose absolute value max(a, -a) is strictly below +infinity is a real.
    For a = -infinity, -a = +infinity; for a = +infinity, a itself is; in both cases the maximum is
    +infinity, which is not strictly below itself. The remaining case is the coercion of a real. -/
theorem real_of_abs_lt_top (a : EReal) (h : Ideal.cmp .olt (max a (-a)) ⊤ = 1#1) :
    ∃ r : ℝ, a = (r : EReal) := by
  induction a using EReal.rec with
  | bot => simp [Ideal.cmp] at h
  | coe r => exact ⟨r, rfl⟩
  | top => simp [Ideal.cmp] at h

/-- One entry of the compared array, at any shape s: the comparison "|x| < c" with c the rank-0
    constant +infinity broadcast to s is, at index i, the order comparison
    max(x i, -(x i)) < +infinity on the extended reals (each operation acts entrywise, and a
    broadcast of a rank-0 array reads its one entry); where it is 1, the entry x i is a real. -/
theorem real_of_entry {s : Shape}
    (hb : Cert.Pre_finite_inputs.S_.BroadcastsInDim s (![] : Fin 0 → Fin s.rank))
    (x : FVec Ideal s .f32) (i : s.Idx)
    (h : cmpf CmpFPredicate.olt (Host.absf x)
          (broadcastInDim s ![] hb (constant Cert.Pre_finite_inputs.S_ FTy.f32 0x7F800000#32)) i = 1#1) :
    ∃ r : ℝ, x i = (r : EReal) := by
  change Ideal.cmp .olt (max (x i) (-(x i))) (Ideal.ofBits .f32 0x7F800000#32) = 1#1 at h
  rw [ofBits_posInf] at h
  exact real_of_abs_lt_top _ h

end Finite

/-- If the finiteness predicate holds of the two argument arrays, each of their entries is a real. -/
theorem real_of_pre [Cert.Pre_finite_inputs.Facts]
    (x0 : FVec Ideal Cert.Pre_finite_inputs.S512x512x512 .f32)
    (x1 : FVec Ideal Cert.Pre_finite_inputs.S150x512x512 .f32)
    (h : Cert.Pre_finite_inputs.fn (F := Ideal) x0 x1 = fun _ => 1#1) :
    (∀ i, ∃ r : ℝ, x0 i = (r : EReal)) ∧ (∀ i, ∃ r : ℝ, x1 i = (r : EReal)) := by
  -- the result has rank 0: read the hypothesis at its one index, and expose the chain of operations
  have e := congrFun h ValueIdx.ix0
  dsimp only [Cert.Pre_finite_inputs.fn] at e
  -- the final "and" of two one-bit words is 1 exactly when both are
  obtain ⟨e0, e1⟩ := IntOp.andi_eq_one.1 e
  -- each word is a reduction by "and" over all axes that came out 1: every reduced entry was 1,
  -- and an entry being 1 says the corresponding argument entry is a real
  haveI := Finite.scalarIdx_subsingleton
  exact ⟨fun i => Finite.real_of_entry _ x0 i (Host.reduce_andi_all _ _ _ _ _ e0 i),
         fun i => Finite.real_of_entry _ x1 i (Host.reduce_andi_all _ _ _ _ _ e1 i)⟩

end SpatialGather

end
-- ==== Proof.lean ====
/-
  The certificate of the softmax-weighted spatial pooling kernel against its jnp reference.

  Both programs take per-pixel class scores (150 classes, 512 by 512 pixels) and per-pixel features (512 channels).
  Every pixel's scores become probabilities by the softmax over the classes; every class's probabilities are
  totalled over all pixels and the total is clamped from below by one millionth; the result at class `k` and
  channel `c` is the probability-weighted sum of the features over the pixels, divided by the class's clamped total.

  The kernel walks the pixels in two rows of 32 blocks of 4096, keeps a running accumulator and a running column
  total per row, writes each row's pair out at the row's last block, and leaves the addition of the two rows and
  the one division to the host.  The reference divides every weight first and then contracts over all pixels.  On
  the extended reals sums may be regrouped freely, so the kernel's nested sums are the sums over all pixels; pulling
  the division out of the sum is the one step that needs every term to be a real number, which the precondition
  (all inputs finite) provides: the scores are real, hence so are the probabilities and their totals, and the
  clamped total is a positive real.

  The three frame claims are the generated ones (the reference's is its generated run with the result dropped);
  the idealization rewrote nothing, so the preservation claim is trivial.
-/
import proofs.«134938_j48026324304270_1_alg».proof.Defs
import proofs.«134938_j48026324304270_1_alg».proof.Proof.Gen.Kernel
import proofs.«134938_j48026324304270_1_alg».proof.Proof.Gen.Kernel.Frame
import proofs.«134938_j48026324304270_1_alg».proof.Proof.Gen.KernelIdeal
import proofs.«134938_j48026324304270_1_alg».proof.Proof.Gen.KernelIdeal.Frame
import proofs.«134938_j48026324304270_1_alg».proof.Proof.Gen.ReferenceIdeal
import proofs.«134938_j48026324304270_1_alg».proof.Proof.Gen.Pre_finite_inputs
import proofs.«134938_j48026324304270_1_alg».proof.Proof.Gen.ReferenceIdeal.Run
import proofs.«134938_j48026324304270_1_alg».proof.Proof.Gen.ReferenceIdeal.Read
import proofs.«134938_j48026324304270_1_alg».proof.Proof.KernelBridge
import proofs.«134938_j48026324304270_1_alg».proof.Proof.RefRead
import proofs.«134938_j48026324304270_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx SpatialGather

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reshaped scores of a finite argument are reals. -/
theorem scores_real (x1 : FVec Ideal Cert.ReferenceIdeal.S150x512x512 .f32) (h1 : ∀ i, ∃ r : ℝ, x1 i = (r : EReal))
    (k : Fin 150) (n : Fin 262144) : ∃ r : ℝ, Cert.ReferenceIdeal.RefValue.scores x1 k n = (r : EReal) := by
  unfold Cert.ReferenceIdeal.RefValue.scores
  rw [Cert.ReferenceIdeal.Read.val_main_v2_apply]
  exact h1 _

/-- The reshaped features of a finite argument are reals. -/
theorem feats_real (x0 : FVec Ideal Cert.ReferenceIdeal.S512x512x512 .f32) (h0 : ∀ i, ∃ r : ℝ, x0 i = (r : EReal))
    (c : Fin 512) (n : Fin 262144) : ∃ r : ℝ, Cert.ReferenceIdeal.RefValue.feats x0 c n = (r : EReal) := by
  unfold Cert.ReferenceIdeal.RefValue.feats
  rw [Cert.ReferenceIdeal.Read.val_main_v0_apply]
  exact h0 _

/-- The score array the kernel's region finds is the reference's reshaped scores of the same argument. -/
theorem sc_eq (m : (ℓ : Loc Cert.KernelIdeal.nD Cert.KernelIdeal.τ Cert.KernelIdeal.sig) → Buf (Elt Ideal) ℓ)
    (c : Dev Cert.KernelIdeal.nD) :
    Cert.KernelIdeal.Bridge.sc m c
      = Cert.ReferenceIdeal.RefValue.scores (m ((c.tc : Thread Cert.KernelIdeal.nD Cert.KernelIdeal.τ).loc Cert.KernelIdeal.main_arg1)) := by
  funext k n
  unfold Cert.KernelIdeal.Bridge.sc Cert.ReferenceIdeal.RefValue.scores
  rw [Cert.KernelIdeal.Result.V_scores]
  rfl

/-- The feature array the kernel's region finds is the reference's reshaped features of the same argument. -/
theorem ft_eq (m : (ℓ : Loc Cert.KernelIdeal.nD Cert.KernelIdeal.τ Cert.KernelIdeal.sig) → Buf (Elt Ideal) ℓ)
    (c : Dev Cert.KernelIdeal.nD) :
    Cert.KernelIdeal.Bridge.ft m c
      = Cert.ReferenceIdeal.RefValue.feats (m ((c.tc : Thread Cert.KernelIdeal.nD Cert.KernelIdeal.τ).loc Cert.KernelIdeal.main_arg0)) := by
  funext ch n
  unfold Cert.KernelIdeal.Bridge.ft Cert.ReferenceIdeal.RefValue.feats
  rw [Cert.KernelIdeal.Result.V_feats]
  rfl

/-- From memories agreeing on the two arguments, both idealized programs end with equal results: the reference's is
    "divide every weight, then sum", the kernel's "divide the finished sum once", of the same finite arrays. -/
theorem algebraic : Cert.algebraic_KernelIdeal_ReferenceIdeal := by
  intro m ρ m' ρ' hpre hagree
  refine ⟨fun c => Cert.KernelIdeal.Result.tail (Cert.KernelIdeal.Arrays.accArr m c) (Cert.KernelIdeal.Arrays.colArr m c),
    Cert.KernelIdeal.Bridge.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, (hagree c).1, (hagree c).2]
  funext i
  obtain ⟨k, c', rfl⟩ : ∃ (k : Fin 150) (c' : Fin 512), i = ix2 k c' := ⟨i 0, i 1, eq_ix2 i⟩
  obtain ⟨h0, h1⟩ := real_of_pre _ _ (hpre c)
  rw [Cert.ReferenceIdeal.RefValue.result_at]
  refine Eq.trans ?_ (Cert.KernelIdeal.Bridge.kernel_at m c k c').symm
  rw [sc_eq, ft_eq]
  show ctxRef (Ideal.ofBits .f32 0xFF800000#32) (Ideal.ofBits .f32 0x358637BD#32) _ _ k c'
    = ctxKernel (Ideal.ofBits .f32 0xFF800000#32) (Ideal.ofBits .f32 0x358637BD#32) _ _ k c'
  rw [ofBits_negInf]
  exact ctxRef_eq_ctxKernel _ ofBits_eps_pos _ _ (scores_real _ h1) (feats_real _ h0) k c'

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
